-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x1 : Shape := ⟨3, ![4, 1, 1]⟩
abbrev S1x1024x3 : Shape := ⟨3, ![1, 1024, 3]⟩
abbrev S1x3x1024 : Shape := ⟨3, ![1, 3, 1024]⟩
abbrev S1x1x1 : Shape := ⟨3, ![1, 1, 1]⟩
abbrev S1024x1 : Shape := ⟨2, ![1024, 1]⟩
abbrev S1x8192 : Shape := ⟨2, ![1, 8192]⟩
abbrev S1x1 : Shape := ⟨2, ![1, 1]⟩
abbrev S1024x3 : Shape := ⟨2, ![1024, 3]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S1 : Shape := ⟨1, ![1]⟩
abbrev S4 : Shape := ⟨1, ![4]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x1x1, .f32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1, .f32⟩
  | .local _ .vmem, ⟨5, _⟩ => ⟨S1x1x1, .f32⟩
  | .local _ .vmem, ⟨6, _⟩ => ⟨S1024x1, .f32⟩
  | .local _ .vmem, ⟨7, _⟩ => ⟨S1x8192, .f32⟩
  | .local _ .vmem, ⟨8, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v43 : BitVec 32 := Scalar.muli arg2 c1024_i32
  v43
def k0_off1 (i : grid0.Coords) : Fin 2 → Nat :=
  let c0_15 : Index := 0#32
  let arg2 : BitVec 32 := BitVec.ofNat 32 (i 2).val
  let c1024_i32 : BitVec 32 := 1024#32
  let v43 : BitVec 32 := Scalar.muli arg2 c1024_i32
  let v44 : BitVec 32 := v43
  let v45 : Index := Scalar.indexCast v44
  ![0, v45.toNat]
def k0_cond5 (i : grid0.Coords) : BitVec 1 :=
  let arg1 : BitVec 32 := BitVec.ofNat 32 (i 1).val
  let c7_i32_20 : BitVec 32 := 7#32
  let v58 : BitVec 1 := Scalar.cmpi .eq arg1 c7_i32_20
  let arg2 : BitVec 32 := BitVec.ofNat 32 (i 2).val
  let c7_i32_21 : BitVec 32 := 7#32
  let v59 : BitVec 1 := Scalar.cmpi .eq arg2 c7_i32_21
  let v60 : BitVec 1 := Scalar.andi v58 v59
  let v61 : BitVec 32 := Scalar.extui v60
  let c0_i32_22 : BitVec 32 := 0#32
  let v62 : BitVec 1 := Scalar.cmpi .ne v61 c0_i32_22
  v62

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  transposes_S4x8192x3_S4x3x8192_0_2_1 : S4x8192x3.Transposes [0, 2, 1] S4x3x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  reduces_S1024x1_S1 : S1024x1.Reduces [0] S1
  shapeCasts_S1_S1x1 : S1.ShapeCasts S1x1
  reduces_S1x1024_S1 : S1x1024.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x1x1_S4 : S4x1x1.ShapeCasts S4
  reducesTo_S4_S_d0 : S4.ReducesTo [0] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond5 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Step.lean ====
/-
  One grid point of the kernel as a pure update of what its three scratch buffers hold.

  The body keeps a column of 1024 running row minima, a row of 8192 running column minima and a one-element running
  total. At a point it may reset them (first tile of a batch; first tile of a row of tiles), folds the tile's minima in,
  stores the column minima back into the tile's 1024 columns only, and under conditions on the tile's position adds a
  scaled sum to the total and copies the total out. The functions below say what each buffer holds afterwards as a
  function of the point's coordinates, the two input blocks and what the buffers held before; they are stated for any
  float instance.
-/
import proofs.«180826_j62723702391632_2_alg».proof.Proof.Gen.Kernel.Frame
import proofs.«180826_j62723702391632_2_alg».proof.Proof.Gen.Kernel.Skeleton
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The five branch conditions of the body, as the body computes them from the grid coordinates: first tile of the batch;
    first tile of a row of tiles; last tile of a row of tiles; last row of tiles; last tile of the batch. -/
abbrev c1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev c2 (i : grid0.Coords) : Prop := (Scalar.cmpi .ne (Scalar.extui (Scalar.cmpi .eq (BitVec.ofNat 32 (i 2).val) 0#32)) 0#32) = 1#1
abbrev c3 (i : grid0.Coords) : Prop := (Scalar.cmpi .ne (Scalar.extui (Scalar.cmpi .eq (BitVec.ofNat 32 (i 2).val) 7#32)) 0#32) = 1#1
abbrev c4 (i : grid0.Coords) : Prop := (Scalar.cmpi .ne (Scalar.extui (Scalar.cmpi .eq (BitVec.ofNat 32 (i 1).val) 7#32)) 0#32) = 1#1
abbrev c5 (i : grid0.Coords) : Prop := k0_cond5 i = 1#1

/-- The rectangle of the column minima the tile at `i` reads and stores: one row, columns `1024 · j` onwards. -/
abbrev colRect (i : grid0.Coords) : Rect S1x8192 := Rect.unit (s := S1x8192) (k0_off1 i) S1x1024.size (Facts₀.k0_off1_inb i)

/-- Contents `X` of the row of column minima with the tile's 1024 columns replaced by `w`. -/
def putCols (i : grid0.Coords) (X : Vec F S1x8192 .f32) (w : Vec F S1x1024 .f32) : Vec F S1x8192 .f32 :=
  fun y => if h : ∀ a, (k0_off1 i) a ≤ (y a).val ∧ (y a).val < (k0_off1 i) a + S1x1024.size a then
      w (Rect.unitLocal (s := S1x8192) (off := k0_off1 i) (size := S1x1024.size) y h)
    else X y

/-- Reading back one store through the tile's rectangle over any earlier contents. -/
theorem read_writes_cols {sp : Space} (v : View sig .tc sp S1x8192 .f32) (f : v.ty.Contents (Elt F)) (i : grid0.Coords)
    (w : Vec F S1x1024 .f32) :
    v.read (Elt F) (v.writes (Elt F) f [(⟨colRect i, w⟩ : View.Piece (Elt F) S1x8192 .f32)]) = putCols i (v.read (Elt F) f) w := by
  funext y
  unfold putCols colRect
  rw [View.read_writes_cons_unit v f (Facts₀.k0_off1_inb i) w [] y rfl]
  rfl

/-- The row minima after the point: the tile's row minima folded into the earlier ones (reset at the start of a row of
    tiles). -/
def nextRow (i : grid0.Coords) (x0 : Vec F S1x1024x3 .f32) (x1 : Vec F S1x3x1024 .f32) (s0 : Vec F S1024x1 .f32) : Vec F S1024x1 .f32 :=
  k0_pay1 (k0_pay11 x0 x1 (if c2 i then k0_pay9 else s0))

/-- The column minima the point starts from (reset at the first tile of the batch). -/
def col0 (i : grid0.Coords) (s1 : Vec F S1x8192 .f32) : Vec F S1x8192 .f32 := if c1 i then k0_pay8 else s1
/-- Their slice at the tile's columns. -/
def colSlice (i : grid0.Coords) (s1 : Vec F S1x8192 .f32) : Vec F S1x1024 .f32 := View.ld (col0 i s1) (colRect i)
/-- The column minima after the point. -/
def nextCol (i : grid0.Coords) (x0 : Vec F S1x1024x3 .f32) (x1 : Vec F S1x3x1024 .f32) (s1 : Vec F S1x8192 .f32) : Vec F S1x8192 .f32 :=
  putCols i (col0 i s1) (k0_pay3 (k0_pay10 x0 x1) (colSlice i s1))

/-- The total the point starts from (reset at the first tile of the batch), -/
def tot0 (i : grid0.Coords) (s2 : Vec F S1x1 .f32) : Vec F S1x1 .f32 := if c1 i then k0_pay7 else s2
/-- after the row minima's sum is added (last tile of a row of tiles), -/
def tot1 (i : grid0.Coords) (x0 : Vec F S1x1024x3 .f32) (x1 : Vec F S1x3x1024 .f32) (s0 : Vec F S1024x1 .f32) (s2 : Vec F S1x1 .f32) : Vec F S1x1 .f32 :=
  if c3 i then k0_pay4 (tot0 i s2) (nextRow i x0 x1 s0) else tot0 i s2
/-- and after the column minima's sum is added (last row of tiles): the total after the point. -/
def nextTot (i : grid0.Coords) (x0 : Vec F S1x1024x3 .f32) (x1 : Vec F S1x3x1024 .f32) (s0 : Vec F S1024x1 .f32) (s1 : Vec F S1x8192 .f32) (s2 : Vec F S1x1 .f32) : Vec F S1x1 .f32 :=
  if c4 i then k0_pay5 (k0_pay10 x0 x1) (colSlice i s1) (tot1 i x0 x1 s0 s2) else tot1 i x0 x1 s0 s2
/-- The output block after the point: the total copied out at the last tile of the batch, untouched elsewhere. -/
def nextOut (i : grid0.Coords) (x0 : Vec F S1x1024x3 .f32) (x1 : Vec F S1x3x1024 .f32) (s0 : Vec F S1024x1 .f32) (s1 : Vec F S1x8192 .f32) (s2 : Vec F S1x1 .f32) (xo : Vec F S1x1x1 .f32) : Vec F S1x1x1 .f32 :=
  if c5 i then k0_pay6 (nextTot i x0 x1 s0 s1 s2) else xo

/-- Zero offsets, however many axes. -/
theorem hz2 : (![0, 0] : Fin 2 → ℕ) = fun _ => 0 := by funext a; fin_cases a <;> rfl
theorem hz3 : (![0, 0, 0] : Fin 3 → ℕ) = fun _ => 0 := by funext a; fin_cases a <;> rfl

/-- A store through the whole shape, last, leaves its payload whatever was stored before. -/
theorem rd_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-- Reading back a store through the tile's rectangle over earlier stores. -/
theorem rd_cols {sp : Space} (v : View sig .tc sp S1x8192 .f32) (f : v.ty.Contents (Elt F)) (i : grid0.Coords)
    (w : Vec F S1x1024 .f32) (L : List (View.Piece (Elt F) S1x8192 .f32)) :
    v.read (Elt F) (v.writes (Elt F) f ((⟨colRect i, w⟩ : View.Piece (Elt F) S1x8192 .f32) :: L))
      = putCols i (v.read (Elt F) (v.writes (Elt F) f L)) w := by
  funext y
  unfold putCols colRect
  rw [View.read_writes_cons_unit v f (Facts₀.k0_off1_inb i) w L y rfl]

/-- A load through the whole shape of what a whole-shape store, last, left reads that store's payload. -/
theorem rc_whole {κ : Kind} {sp : Space} {S : Shape} {e : EltTy} (v : View sig κ sp S e)
    {off : Fin S.rank → ℕ} (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero hz inb y⟩),
    View.canon_cons_unit_zero hz, View.ld_unit_zero hz]

end Cert.Kernel.Body

end
-- ==== Proof.K.Run.lean ====
/-
  The kernel body run once per arrangement of its five branch conditions: from the six buffers at given contents it
  runs to the end, faulting nowhere, and leaves the two input blocks as they were and the output block, the row minima,
  the column minima and the total at the pure update of the point.
-/
import proofs.«180826_j62723702391632_2_alg».proof.Proof.K.Step
import Idealize.ShloMosaic.Lib.Tactic
import Idealize.ShloMosaic.Lib.Pipeline.FrameBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point where the branch conditions are c1, c2, not c3, not c4, not c5. -/
theorem run_A (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : c1 i) (h2 : c2 i) (h3 : ¬c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, c2, not c3, not c4, not c5. -/
theorem run_B (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : c2 i) (h3 : ¬c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, not c3, not c4, not c5. -/
theorem run_C (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : ¬c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, c3, not c4, not c5. -/
theorem run_D (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, c2, not c3, c4, not c5. -/
theorem run_E (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : c2 i) (h3 : ¬c3 i) (h4 : c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, not c3, c4, not c5. -/
theorem run_Fc (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : ¬c3 i) (h4 : c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, c3, c4, c5. -/
theorem run_G (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : c3 i) (h4 : c4 i) (h5 : c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

end Cert.Kernel.Body

end
-- ==== Proof.K.Frame.lean ====
/-
  The kernel's run over its 4 × 8 × 8 grid, with what the three scratch buffers hold after every grid point named.

  The scratch buffers are not staged by the pipeline: the body finds in them what the point before left. Their contents
  after position `n` of the grid are defined by recursion on `n` as the pure update of the point applied to the contents
  after position `n - 1`; at the first point of a batch the update ignores what it finds, so the recursion may start from
  anything. The region invariant carries the three buffers at these contents from point to point; the output block is
  the total copied out at the last point of each batch, the only points where the pipeline writes it back.
-/
import proofs.«180826_j62723702391632_2_alg».proof.Proof.K.Run
import proofs.«180826_j62723702391632_2_alg».proof.Proof.Gen.Kernel.Frame
import Idealize.ShloMosaic.Lib.Pipeline.FrameBody
import Idealize.ShloMosaic.Lib.Pipeline.FrameSuffix

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions over the grid, in closed form -/

theorem hc1 : ∀ t : Fin cfg0.N, c1 (grid0.coords t) ↔ t.val % 64 = 0 :=
  (by decide +kernel : ∀ t : Fin grid0.N, c1 (grid0.coords t) ↔ t.val % 64 = 0)
theorem hc2 : ∀ t : Fin cfg0.N, c2 (grid0.coords t) ↔ t.val % 8 = 0 :=
  (by decide +kernel : ∀ t : Fin grid0.N, c2 (grid0.coords t) ↔ t.val % 8 = 0)
theorem hc3 : ∀ t : Fin cfg0.N, c3 (grid0.coords t) ↔ t.val % 8 = 7 :=
  (by decide +kernel : ∀ t : Fin grid0.N, c3 (grid0.coords t) ↔ t.val % 8 = 7)
theorem hc4 : ∀ t : Fin cfg0.N, c4 (grid0.coords t) ↔ t.val / 8 % 8 = 7 :=
  (by decide +kernel : ∀ t : Fin grid0.N, c4 (grid0.coords t) ↔ t.val / 8 % 8 = 7)
theorem hc5 : ∀ t : Fin cfg0.N, c5 (grid0.coords t) ↔ t.val % 64 = 63 :=
  (by decide +kernel : ∀ t : Fin grid0.N, c5 (grid0.coords t) ↔ t.val % 64 = 63)

/-- The two inputs are never idle; the output is idle exactly where the total is not copied out, and there it is not
    written back. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, t.val % 64 = 63 → cfg0.idle 2 (grid0.coords t) = false := by decide +kernel
theorem idle2 : ∀ t : Fin cfg0.N, ¬t.val % 64 = 63 → cfg0.idle 2 (grid0.coords t) = true := by decide +kernel
theorem noFlush2 : ∀ t : Fin cfg0.N, ¬t.val % 64 = 63 → (cfg0.win 2).flush t = false := by decide +kernel

/-! ## The body at a point, whatever its branch conditions -/

set_option maxHeartbeats 1000000 in
/-- The body at grid point `t`: from the six buffers at given contents it runs to the end and leaves the inputs as they
    were and the other four at the pure update of the point. By cases on the closed forms: seven arrangements of the
    five conditions occur on the grid. -/
theorem body_run (c : Dev nD) (t : Fin cfg0.N)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut (grid0.coords t) x0 x1 s0 s1 s2 xo) ∗ owns (c : Thread nD τ) arg6 fullShare (nextRow (grid0.coords t) x0 x1 s0)
            ∗ owns (c : Thread nD τ) arg7 fullShare (nextCol (grid0.coords t) x0 x1 s1) ∗ owns (c : Thread nD τ) arg8 fullShare (nextTot (grid0.coords t) x0 x1 s0 s1 s2)) -∗ K ⟨⟩))
      ⊢ wp frame (wpE (defs₀ (F := F)) Variants.none c none) E (cc0_kernel (grid0.coords t) arg3 harg3 arg4 harg4 arg5 harg5 arg6 harg6 arg7 harg7 arg8 harg8) K := by
  have hN : t.val < 256 := lt_of_lt_of_eq t.isLt (show cfg0.N = 256 from N_0)
  by_cases k1 : t.val % 64 = 0
  · exact run_A c _ _ _ _ _ _ _ _ _ _ _ _ _ ((hc1 t).mpr k1) ((hc2 t).mpr (by omega)) (fun h => absurd ((hc3 t).mp h) (by omega))
      (fun h => absurd ((hc4 t).mp h) (by omega)) (fun h => absurd ((hc5 t).mp h) (by omega)) _ _ _ _ _ _ _ _
  · by_cases k2 : t.val % 8 = 0
    · by_cases k4 : t.val / 8 % 8 = 7
      · exact run_E c _ _ _ _ _ _ _ _ _ _ _ _ _ (fun h => k1 ((hc1 t).mp h)) ((hc2 t).mpr k2) (fun h => absurd ((hc3 t).mp h) (by omega))
          ((hc4 t).mpr k4) (fun h => absurd ((hc5 t).mp h) (by omega)) _ _ _ _ _ _ _ _
      · exact run_B c _ _ _ _ _ _ _ _ _ _ _ _ _ (fun h => k1 ((hc1 t).mp h)) ((hc2 t).mpr k2) (fun h => absurd ((hc3 t).mp h) (by omega))
          (fun h => k4 ((hc4 t).mp h)) (fun h => absurd ((hc5 t).mp h) (by omega)) _ _ _ _ _ _ _ _
    · by_cases k3 : t.val % 8 = 7
      · by_cases k4 : t.val / 8 % 8 = 7
        · exact run_G c _ _ _ _ _ _ _ _ _ _ _ _ _ (fun h => k1 ((hc1 t).mp h)) (fun h => k2 ((hc2 t).mp h)) ((hc3 t).mpr k3)
            ((hc4 t).mpr k4) ((hc5 t).mpr (by omega)) _ _ _ _ _ _ _ _
        · exact run_D c _ _ _ _ _ _ _ _ _ _ _ _ _ (fun h => k1 ((hc1 t).mp h)) (fun h => k2 ((hc2 t).mp h)) ((hc3 t).mpr k3)
            (fun h => k4 ((hc4 t).mp h)) (fun h => absurd ((hc5 t).mp h) (by omega)) _ _ _ _ _ _ _ _
      · by_cases k4 : t.val / 8 % 8 = 7
        · exact run_Fc c _ _ _ _ _ _ _ _ _ _ _ _ _ (fun h => k1 ((hc1 t).mp h)) (fun h => k2 ((hc2 t).mp h)) (fun h => k3 ((hc3 t).mp h))
            ((hc4 t).mpr k4) (fun h => absurd ((hc5 t).mp h) (by omega)) _ _ _ _ _ _ _ _
        · exact run_C c _ _ _ _ _ _ _ _ _ _ _ _ _ (fun h => k1 ((hc1 t).mp h)) (fun h => k2 ((hc2 t).mp h)) (fun h => k3 ((hc3 t).mp h))
            (fun h => k4 ((hc4 t).mp h)) (fun h => absurd ((hc5 t).mp h) (by omega)) _ _ _ _ _ _ _ _

/-! ## The staging memrefs and the scratch buffers -/

abbrev ms0 (t : Fin cfg0.N) : Memref sig .tc .vmem S1x1024x3 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1x3x1024 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S1x1x1 .f32 := win0_2.stage (cfg0.slots t 2)
abbrev hs2 (t : Fin cfg0.N) : (ms2 t).IsWhole := Facts₀.hstage0_2 ((cfg0.slots t 2).cast Facts₀.nbuf0_2)
abbrev scM0 : Memref sig .tc .vmem S1024x1 .f32 := Memref.whole cc0_scratch0
abbrev scM1 : Memref sig .tc .vmem S1x8192 .f32 := Memref.whole cc0_scratch1
abbrev scM2 : Memref sig .tc .vmem S1x1 .f32 := Memref.whole cc0_scratch2

/-- What the launch hands the region beside the windows: the three scratch buffers at some contents and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the scratch buffers hold after each point -/

/-- The scratch contents: row minima, column minima, total. -/
abbrev Scr (F : FTy → Type) [FloatOps F] : Type := Vec F S1024x1 .f32 × Vec F S1x8192 .f32 × Vec F S1x1 .f32

/-- One point's update of the scratch contents, on the point's input blocks. -/
def stepScr (c : Dev nD) (t : Fin cfg0.N) (s : Scr F) : Scr F :=
  (nextRow (grid0.coords t) (iblk m c 0 t) (iblk m c 1 t) s.1,
   nextCol (grid0.coords t) (iblk m c 0 t) (iblk m c 1 t) s.2.1,
   nextTot (grid0.coords t) (iblk m c 0 t) (iblk m c 1 t) s.1 s.2.1 s.2.2)

/-- At the first point of a batch the update does not depend on what it finds. -/
theorem stepScr_first (c : Dev nD) (t : Fin cfg0.N) (h : t.val % 64 = 0) (s s' : Scr F) : stepScr m c t s = stepScr m c t s' := by
  have h1 := (hc1 t).mpr h
  have h2 := (hc2 t).mpr (by omega)
  have h3 : ¬c3 (grid0.coords t) := fun h' => absurd ((hc3 t).mp h') (by omega)
  have h4 : ¬c4 (grid0.coords t) := fun h' => absurd ((hc4 t).mp h') (by omega)
  unfold stepScr nextTot tot1 tot0 nextCol colSlice col0 nextRow
  simp only [if_pos h1, if_pos h2, if_neg h3, if_neg h4]

/-- The scratch contents after position `n` of the grid. -/
def scrAt (c : Dev nD) : (n : ℕ) → n < cfg0.N → Scr F
  | 0, hn => stepScr m c ⟨0, hn⟩ (k0_pay9, k0_pay8, k0_pay7)
  | n + 1, hn => stepScr m c ⟨n + 1, hn⟩ (scrAt c n (Nat.lt_of_succ_lt hn))

theorem scrAt_pos (c : Dev nD) (t : Fin cfg0.N) (hz : t.val ≠ 0) :
    scrAt m c t.val t.isLt = stepScr m c t (scrAt m c (t.val - 1) (Nat.lt_of_le_of_lt (Nat.sub_le _ _) t.isLt)) := by
  obtain ⟨n, hn⟩ := t
  cases n with
  | zero => exact absurd rfl hz
  | succ n => rfl

theorem scrAt_zero (c : Dev nD) (t : Fin cfg0.N) (hz : t.val = 0) (s : Scr F) : scrAt m c t.val t.isLt = stepScr m c t s := by
  obtain ⟨n, hn⟩ := t
  cases n with
  | zero => exact stepScr_first m c ⟨0, hn⟩ rfl _ _
  | succ n => exact absurd hz (Nat.succ_ne_zero n)

/-- The region invariant before position `n`: before the first point what the launch hands over; afterwards the three
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (scrAt m c n hn).1 ∗ owns (c : Thread nD τ) scM1 fullShare (scrAt m c n hn).2.1 ∗ owns (c : Thread nD τ) scM2 fullShare (scrAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (scrAt m c n hn).1 ∗ owns (c : Thread nD τ) scM1 fullShare (scrAt m c n hn).2.1 ∗ owns (c : Thread nD τ) scM2 fullShare (scrAt m c n hn).2.2) ∗ (∃ r, prngReg c r)) := rfl
theorem PhiS_pos (c : Dev nD) (n : ℕ) (h : n ≤ cfg0.N) (hz : n ≠ 0) :
    PhiS m c n h = iprop(iprop(owns (c : Thread nD τ) scM0 fullShare (scrAt m c (n - 1) (by omega)).1 ∗ owns (c : Thread nD τ) scM1 fullShare (scrAt m c (n - 1) (by omega)).2.1 ∗ owns (c : Thread nD τ) scM2 fullShare (scrAt m c (n - 1) (by omega)).2.2) ∗ (∃ r, prngReg c r)) := by
  cases n with
  | zero => exact absurd rfl hz
  | succ n => rfl

/-! ## The pipeline's proof data -/

/-- The arrays as the region finds them; after the body each input's buffer at its block and the output's at the total
    of that point copied out (consulted only at the last point of a batch); the invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay6 (scrAt m c t.val t.isLt).2.2
    | ⟨_ + 3, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay6 (scrAt m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the inputs' memrefs hold their blocks; the invariant hands the body the scratch buffers at what
    the point before left (at anything before the first point) and takes them back at this point's contents; the output's
    buffer is handed back as found except at the last point of a batch, where it holds the total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  have hN : t.val < 256 := lt_of_lt_of_eq t.isLt (show cfg0.N = 256 from N_0)
  by_cases h5 : t.val % 64 = 63
  · have hz : t.val ≠ 0 := by omega
    rw [show (dats m 0 c).leavesExact 2 t = owns (c : Thread nD τ) (ms2 t) fullShare ((dats m 0 c).after 2 t) from by
      unfold Dat.leavesExact; rw [live2 t h5], after0_2]
    rw [scrAt_pos m c t hz]
    rw [PhiS_castSucc m c t, PhiS_pos m c _ _ hz]
    unfold stepScr; dsimp only
    iintro ⟨⟨⟨HS0, HS1, HS2⟩, Hg⟩, Ho, ⟨%d0, H0⟩, ⟨%d1, H1⟩, ⟨%d2, H2⟩⟩
    iapply (body_run c t (ms0 t) (hs0 t) (ms1 t) (hs1 t) (ms2 t) (hs2 t) scM0 (Memref.isWhole_whole _) scM1 (Memref.isWhole_whole _) scM2 (Memref.isWhole_whole _)
      (iblk m c 0 t) (iblk m c 1 t) _ _ _ _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    rw [show nextOut (grid0.coords t) (iblk m c 0 t) (iblk m c 1 t) _ _ _ _ = k0_pay6 _ from if_pos ((hc5 t).mpr h5)]
    iexact H2
  · rw [Dat.leavesExact_idle (dats m 0 c) 2 t (idle2 t h5) (noFlush2 t h5)]
    by_cases hz : t.val = 0
    · rw [PhiS_castSucc m c t, PhiS_zero m c _ _ hz, PhiA0_eq]
      iintro ⟨⟨⟨⟨%e0, HS0⟩, ⟨%e1, HS1⟩, ⟨%e2, HS2⟩⟩, Hg⟩, Ho, ⟨%d0, H0⟩, ⟨%d1, H1⟩, ⟨%d2, H2⟩⟩
      rw [scrAt_zero m c t hz (e0, e1, e2)]
      unfold stepScr; dsimp only
      iapply (body_run c t (ms0 t) (hs0 t) (ms1 t) (hs1 t) (ms2 t) (hs2 t) scM0 (Memref.isWhole_whole _) scM1 (Memref.isWhole_whole _) scM2 (Memref.isWhole_whole _)
        (iblk m c 0 t) (iblk m c 1 t) _ e0 e1 e2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      rw [show nextOut (grid0.coords t) (iblk m c 0 t) (iblk m c 1 t) _ _ _ _ = _ from if_neg (fun h => h5 ((hc5 t).mp h))]
      iexists _; iexact H2
    · rw [scrAt_pos m c t hz]
      rw [PhiS_castSucc m c t, PhiS_pos m c _ _ hz]
      unfold stepScr; dsimp only
      iintro ⟨⟨⟨HS0, HS1, HS2⟩, Hg⟩, Ho, ⟨%d0, H0⟩, ⟨%d1, H1⟩, ⟨%d2, H2⟩⟩
      iapply (body_run c t (ms0 t) (hs0 t) (ms1 t) (hs1 t) (ms2 t) (hs2 t) scM0 (Memref.isWhole_whole _) scM1 (Memref.isWhole_whole _) scM2 (Memref.isWhole_whole _)
        (iblk m c 0 t) (iblk m c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      rw [show nextOut (grid0.coords t) (iblk m c 0 t) (iblk m c 1 t) _ _ _ _ = _ from if_neg (fun h => h5 ((hc5 t).mp h))]
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the scratch buffers' contents forgotten. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, faulting nowhere, with every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Step.lean ====
/-
  One grid point of the kernel as a pure update of what its three scratch buffers hold.

  The body keeps a column of 1024 running row minima, a row of 8192 running column minima and a one-element running
  total. At a point it may reset them (first tile of a batch; first tile of a row of tiles), folds the tile's minima in,
  stores the column minima back into the tile's 1024 columns only, and under conditions on the tile's position adds a
  scaled sum to the total and copies the total out. The functions below say what each buffer holds afterwards as a
  function of the point's coordinates, the two input blocks and what the buffers held before; they are stated for any
  float instance.
-/
import proofs.«180826_j62723702391632_2_alg».proof.Proof.Gen.KernelIdeal.Frame
import proofs.«180826_j62723702391632_2_alg».proof.Proof.Gen.KernelIdeal.Skeleton
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The five branch conditions of the body, as the body computes them from the grid coordinates: first tile of the batch;
    first tile of a row of tiles; last tile of a row of tiles; last row of tiles; last tile of the batch. -/
abbrev c1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev c2 (i : grid0.Coords) : Prop := (Scalar.cmpi .ne (Scalar.extui (Scalar.cmpi .eq (BitVec.ofNat 32 (i 2).val) 0#32)) 0#32) = 1#1
abbrev c3 (i : grid0.Coords) : Prop := (Scalar.cmpi .ne (Scalar.extui (Scalar.cmpi .eq (BitVec.ofNat 32 (i 2).val) 7#32)) 0#32) = 1#1
abbrev c4 (i : grid0.Coords) : Prop := (Scalar.cmpi .ne (Scalar.extui (Scalar.cmpi .eq (BitVec.ofNat 32 (i 1).val) 7#32)) 0#32) = 1#1
abbrev c5 (i : grid0.Coords) : Prop := k0_cond5 i = 1#1

/-- The rectangle of the column minima the tile at `i` reads and stores: one row, columns `1024 · j` onwards. -/
abbrev colRect (i : grid0.Coords) : Rect S1x8192 := Rect.unit (s := S1x8192) (k0_off1 i) S1x1024.size (Facts₀.k0_off1_inb i)

/-- Contents `X` of the row of column minima with the tile's 1024 columns replaced by `w`. -/
def putCols (i : grid0.Coords) (X : Vec F S1x8192 .f32) (w : Vec F S1x1024 .f32) : Vec F S1x8192 .f32 :=
  fun y => if h : ∀ a, (k0_off1 i) a ≤ (y a).val ∧ (y a).val < (k0_off1 i) a + S1x1024.size a then
      w (Rect.unitLocal (s := S1x8192) (off := k0_off1 i) (size := S1x1024.size) y h)
    else X y

/-- Reading back one store through the tile's rectangle over any earlier contents. -/
theorem read_writes_cols {sp : Space} (v : View sig .tc sp S1x8192 .f32) (f : v.ty.Contents (Elt F)) (i : grid0.Coords)
    (w : Vec F S1x1024 .f32) :
    v.read (Elt F) (v.writes (Elt F) f [(⟨colRect i, w⟩ : View.Piece (Elt F) S1x8192 .f32)]) = putCols i (v.read (Elt F) f) w := by
  funext y
  unfold putCols colRect
  rw [View.read_writes_cons_unit v f (Facts₀.k0_off1_inb i) w [] y rfl]
  rfl

/-- The row minima after the point: the tile's row minima folded into the earlier ones (reset at the start of a row of
    tiles). -/
def nextRow (i : grid0.Coords) (x0 : Vec F S1x1024x3 .f32) (x1 : Vec F S1x3x1024 .f32) (s0 : Vec F S1024x1 .f32) : Vec F S1024x1 .f32 :=
  k0_pay1 (k0_pay11 x0 x1 (if c2 i then k0_pay9 else s0))

/-- The column minima the point starts from (reset at the first tile of the batch). -/
def col0 (i : grid0.Coords) (s1 : Vec F S1x8192 .f32) : Vec F S1x8192 .f32 := if c1 i then k0_pay8 else s1
/-- Their slice at the tile's columns. -/
def colSlice (i : grid0.Coords) (s1 : Vec F S1x8192 .f32) : Vec F S1x1024 .f32 := View.ld (col0 i s1) (colRect i)
/-- The column minima after the point. -/
def nextCol (i : grid0.Coords) (x0 : Vec F S1x1024x3 .f32) (x1 : Vec F S1x3x1024 .f32) (s1 : Vec F S1x8192 .f32) : Vec F S1x8192 .f32 :=
  putCols i (col0 i s1) (k0_pay3 (k0_pay10 x0 x1) (colSlice i s1))

/-- The total the point starts from (reset at the first tile of the batch), -/
def tot0 (i : grid0.Coords) (s2 : Vec F S1x1 .f32) : Vec F S1x1 .f32 := if c1 i then k0_pay7 else s2
/-- after the row minima's sum is added (last tile of a row of tiles), -/
def tot1 (i : grid0.Coords) (x0 : Vec F S1x1024x3 .f32) (x1 : Vec F S1x3x1024 .f32) (s0 : Vec F S1024x1 .f32) (s2 : Vec F S1x1 .f32) : Vec F S1x1 .f32 :=
  if c3 i then k0_pay4 (tot0 i s2) (nextRow i x0 x1 s0) else tot0 i s2
/-- and after the column minima's sum is added (last row of tiles): the total after the point. -/
def nextTot (i : grid0.Coords) (x0 : Vec F S1x1024x3 .f32) (x1 : Vec F S1x3x1024 .f32) (s0 : Vec F S1024x1 .f32) (s1 : Vec F S1x8192 .f32) (s2 : Vec F S1x1 .f32) : Vec F S1x1 .f32 :=
  if c4 i then k0_pay5 (k0_pay10 x0 x1) (colSlice i s1) (tot1 i x0 x1 s0 s2) else tot1 i x0 x1 s0 s2
/-- The output block after the point: the total copied out at the last tile of the batch, untouched elsewhere. -/
def nextOut (i : grid0.Coords) (x0 : Vec F S1x1024x3 .f32) (x1 : Vec F S1x3x1024 .f32) (s0 : Vec F S1024x1 .f32) (s1 : Vec F S1x8192 .f32) (s2 : Vec F S1x1 .f32) (xo : Vec F S1x1x1 .f32) : Vec F S1x1x1 .f32 :=
  if c5 i then k0_pay6 (nextTot i x0 x1 s0 s1 s2) else xo

/-- Zero offsets, however many axes. -/
theorem hz2 : (![0, 0] : Fin 2 → ℕ) = fun _ => 0 := by funext a; fin_cases a <;> rfl
theorem hz3 : (![0, 0, 0] : Fin 3 → ℕ) = fun _ => 0 := by funext a; fin_cases a <;> rfl

/-- A store through the whole shape, last, leaves its payload whatever was stored before. -/
theorem rd_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-- Reading back a store through the tile's rectangle over earlier stores. -/
theorem rd_cols {sp : Space} (v : View sig .tc sp S1x8192 .f32) (f : v.ty.Contents (Elt F)) (i : grid0.Coords)
    (w : Vec F S1x1024 .f32) (L : List (View.Piece (Elt F) S1x8192 .f32)) :
    v.read (Elt F) (v.writes (Elt F) f ((⟨colRect i, w⟩ : View.Piece (Elt F) S1x8192 .f32) :: L))
      = putCols i (v.read (Elt F) (v.writes (Elt F) f L)) w := by
  funext y
  unfold putCols colRect
  rw [View.read_writes_cons_unit v f (Facts₀.k0_off1_inb i) w L y rfl]

/-- A load through the whole shape of what a whole-shape store, last, left reads that store's payload. -/
theorem rc_whole {κ : Kind} {sp : Space} {S : Shape} {e : EltTy} (v : View sig κ sp S e)
    {off : Fin S.rank → ℕ} (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero hz inb y⟩),
    View.canon_cons_unit_zero hz, View.ld_unit_zero hz]

end Cert.KernelIdeal.Body

end
-- ==== Proof.KI.Run.lean ====
/-
  The kernel body run once per arrangement of its five branch conditions: from the six buffers at given contents it
  runs to the end, faulting nowhere, and leaves the two input blocks as they were and the output block, the row minima,
  the column minima and the total at the pure update of the point.
-/
import proofs.«180826_j62723702391632_2_alg».proof.Proof.KI.Step
import Idealize.ShloMosaic.Lib.Tactic
import Idealize.ShloMosaic.Lib.Pipeline.FrameBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point where the branch conditions are c1, c2, not c3, not c4, not c5. -/
theorem run_A (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : c1 i) (h2 : c2 i) (h3 : ¬c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_pos h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, c2, not c3, not c4, not c5. -/
theorem run_B (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : c2 i) (h3 : ¬c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_pos h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, not c3, not c4, not c5. -/
theorem run_C (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : ¬c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_neg h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, c3, not c4, not c5. -/
theorem run_D (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : c3 i) (h4 : ¬c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_pos h3, if_neg h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, c2, not c3, c4, not c5. -/
theorem run_E (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : c2 i) (h3 : ¬c3 i) (h4 : c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_pos h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, not c3, c4, not c5. -/
theorem run_Fc (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : ¬c3 i) (h4 : c4 i) (h5 : ¬c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_neg h3, if_pos h4, if_neg h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

set_option maxHeartbeats 1000000 in
/-- The body at a point where the branch conditions are not c1, not c2, c3, c4, c5. -/
theorem run_G (c : Dev nD) (i : grid0.Coords)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (h1 : ¬c1 i) (h2 : ¬c2 i) (h3 : c3 i) (h4 : c4 i) (h5 : c5 i)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut i x0 x1 s0 s1 s2 xo) ∗ owns (c : Thread nD τ) arg6 fullShare (nextRow i x0 x1 s0)
            ∗ owns (c : Thread nD τ) arg7 fullShare (nextCol i x0 x1 s1) ∗ owns (c : Thread nD τ) arg8 fullShare (nextTot i x0 x1 s0 s1 s2)) -∗ K ⟨⟩))
      ⊢ wp frame (wpE (defs₀ (F := F)) Variants.none c none) E (cc0_kernel i arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4 | exact h5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H6]
  · iexists _; isplitr
    swap; · iexact H6
    ipureintro
    sl_unfold_run_names
    simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
  isplitl [H7]
  · iexists _; isplitr
    swap; · iexact H7
    ipureintro
    sl_unfold_run_names
    simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]
    try (refine (rd_cols _ _ i _ _).trans ?_)
    try simp only [View.writes_nil, Memref.IsWhole.read_unread, rd_whole (S := S1x8192) _ _ hz2]
    try rfl
  iexists _; isplitr
  swap; · iexact H8
  ipureintro
  sl_unfold_run_names
  simp only [nextRow, nextCol, nextTot, nextOut, tot0, tot1, col0, colSlice, if_neg h1, if_neg h2, if_pos h3, if_pos h4, if_pos h5, View.readAt_eq_ld, rd_whole (S := S1024x1) _ _ hz2, rd_whole (S := S1x8192) _ _ hz2, rd_whole (S := S1x1) _ _ hz2, rd_whole (S := S1x1x1) _ _ hz3, rc_whole (S := S1024x1) _ hz2, rc_whole (S := S1x1) _ hz2, rc_whole (S := S1x8192) _ hz2, rc_whole (S := S1x1x1) _ hz3, rd_cols, View.writes_nil, Memref.IsWhole.read_unread, View.ld_unit_zero (S := S1x1024x3) hz3, View.ld_unit_zero (S := S1x3x1024) hz3, View.ld_unit_zero (S := S1024x1) hz2, View.ld_unit_zero (S := S1x8192) hz2, View.ld_unit_zero (S := S1x1) hz2, View.ld_unit_zero (S := S1x1x1) hz3]

end Cert.KernelIdeal.Body

end
-- ==== Proof.KI.Frame.lean ====
/-
  The kernel's run over its 4 × 8 × 8 grid, with what the three scratch buffers hold after every grid point named.

  The scratch buffers are not staged by the pipeline: the body finds in them what the point before left. Their contents
  after position `n` of the grid are defined by recursion on `n` as the pure update of the point applied to the contents
  after position `n - 1`; at the first point of a batch the update ignores what it finds, so the recursion may start from
  anything. The region invariant carries the three buffers at these contents from point to point; the output block is
  the total copied out at the last point of each batch, the only points where the pipeline writes it back.
-/
import proofs.«180826_j62723702391632_2_alg».proof.Proof.KI.Run
import proofs.«180826_j62723702391632_2_alg».proof.Proof.Gen.KernelIdeal.Frame
import Idealize.ShloMosaic.Lib.Pipeline.FrameBody
import Idealize.ShloMosaic.Lib.Pipeline.FrameSuffix

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions over the grid, in closed form -/

theorem hc1 : ∀ t : Fin cfg0.N, c1 (grid0.coords t) ↔ t.val % 64 = 0 :=
  (by decide +kernel : ∀ t : Fin grid0.N, c1 (grid0.coords t) ↔ t.val % 64 = 0)
theorem hc2 : ∀ t : Fin cfg0.N, c2 (grid0.coords t) ↔ t.val % 8 = 0 :=
  (by decide +kernel : ∀ t : Fin grid0.N, c2 (grid0.coords t) ↔ t.val % 8 = 0)
theorem hc3 : ∀ t : Fin cfg0.N, c3 (grid0.coords t) ↔ t.val % 8 = 7 :=
  (by decide +kernel : ∀ t : Fin grid0.N, c3 (grid0.coords t) ↔ t.val % 8 = 7)
theorem hc4 : ∀ t : Fin cfg0.N, c4 (grid0.coords t) ↔ t.val / 8 % 8 = 7 :=
  (by decide +kernel : ∀ t : Fin grid0.N, c4 (grid0.coords t) ↔ t.val / 8 % 8 = 7)
theorem hc5 : ∀ t : Fin cfg0.N, c5 (grid0.coords t) ↔ t.val % 64 = 63 :=
  (by decide +kernel : ∀ t : Fin grid0.N, c5 (grid0.coords t) ↔ t.val % 64 = 63)

/-- The two inputs are never idle; the output is idle exactly where the total is not copied out, and there it is not
    written back. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, t.val % 64 = 63 → cfg0.idle 2 (grid0.coords t) = false := by decide +kernel
theorem idle2 : ∀ t : Fin cfg0.N, ¬t.val % 64 = 63 → cfg0.idle 2 (grid0.coords t) = true := by decide +kernel
theorem noFlush2 : ∀ t : Fin cfg0.N, ¬t.val % 64 = 63 → (cfg0.win 2).flush t = false := by decide +kernel

/-! ## The body at a point, whatever its branch conditions -/

set_option maxHeartbeats 1000000 in
/-- The body at grid point `t`: from the six buffers at given contents it runs to the end and leaves the inputs as they
    were and the other four at the pure update of the point. By cases on the closed forms: seven arrangements of the
    five conditions occur on the grid. -/
theorem body_run (c : Dev nD) (t : Fin cfg0.N)
    (arg3 : Memref sig .tc .vmem S1x1024x3 .f32) (harg3 : arg3.IsWhole) (arg4 : Memref sig .tc .vmem S1x3x1024 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x8192 .f32) (harg7 : arg7.IsWhole) (arg8 : Memref sig .tc .vmem S1x1 .f32) (harg8 : arg8.IsWhole)
    (x0 : Vec F S1x1024x3 .f32) (x1 : Vec F S1x3x1024 .f32) (xo : Vec F S1x1x1 .f32)
    (s0 : Vec F S1024x1 .f32) (s1 : Vec F S1x8192 .f32) (s2 : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare x1
            ∗ owns (c : Thread nD τ) arg5 fullShare (nextOut (grid0.coords t) x0 x1 s0 s1 s2 xo) ∗ owns (c : Thread nD τ) arg6 fullShare (nextRow (grid0.coords t) x0 x1 s0)
            ∗ owns (c : Thread nD τ) arg7 fullShare (nextCol (grid0.coords t) x0 x1 s1) ∗ owns (c : Thread nD τ) arg8 fullShare (nextTot (grid0.coords t) x0 x1 s0 s1 s2)) -∗ K ⟨⟩))
      ⊢ wp frame (wpE (defs₀ (F := F)) Variants.none c none) E (cc0_kernel (grid0.coords t) arg3 harg3 arg4 harg4 arg5 harg5 arg6 harg6 arg7 harg7 arg8 harg8) K := by
  have hN : t.val < 256 := lt_of_lt_of_eq t.isLt (show cfg0.N = 256 from N_0)
  by_cases k1 : t.val % 64 = 0
  · exact run_A c _ _ _ _ _ _ _ _ _ _ _ _ _ ((hc1 t).mpr k1) ((hc2 t).mpr (by omega)) (fun h => absurd ((hc3 t).mp h) (by omega))
      (fun h => absurd ((hc4 t).mp h) (by omega)) (fun h => absurd ((hc5 t).mp h) (by omega)) _ _ _ _ _ _ _ _
  · by_cases k2 : t.val % 8 = 0
    · by_cases k4 : t.val / 8 % 8 = 7
      · exact run_E c _ _ _ _ _ _ _ _ _ _ _ _ _ (fun h => k1 ((hc1 t).mp h)) ((hc2 t).mpr k2) (fun h => absurd ((hc3 t).mp h) (by omega))
          ((hc4 t).mpr k4) (fun h => absurd ((hc5 t).mp h) (by omega)) _ _ _ _ _ _ _ _
      · exact run_B c _ _ _ _ _ _ _ _ _ _ _ _ _ (fun h => k1 ((hc1 t).mp h)) ((hc2 t).mpr k2) (fun h => absurd ((hc3 t).mp h) (by omega))
          (fun h => k4 ((hc4 t).mp h)) (fun h => absurd ((hc5 t).mp h) (by omega)) _ _ _ _ _ _ _ _
    · by_cases k3 : t.val % 8 = 7
      · by_cases k4 : t.val / 8 % 8 = 7
        · exact run_G c _ _ _ _ _ _ _ _ _ _ _ _ _ (fun h => k1 ((hc1 t).mp h)) (fun h => k2 ((hc2 t).mp h)) ((hc3 t).mpr k3)
            ((hc4 t).mpr k4) ((hc5 t).mpr (by omega)) _ _ _ _ _ _ _ _
        · exact run_D c _ _ _ _ _ _ _ _ _ _ _ _ _ (fun h => k1 ((hc1 t).mp h)) (fun h => k2 ((hc2 t).mp h)) ((hc3 t).mpr k3)
            (fun h => k4 ((hc4 t).mp h)) (fun h => absurd ((hc5 t).mp h) (by omega)) _ _ _ _ _ _ _ _
      · by_cases k4 : t.val / 8 % 8 = 7
        · exact run_Fc c _ _ _ _ _ _ _ _ _ _ _ _ _ (fun h => k1 ((hc1 t).mp h)) (fun h => k2 ((hc2 t).mp h)) (fun h => k3 ((hc3 t).mp h))
            ((hc4 t).mpr k4) (fun h => absurd ((hc5 t).mp h) (by omega)) _ _ _ _ _ _ _ _
        · exact run_C c _ _ _ _ _ _ _ _ _ _ _ _ _ (fun h => k1 ((hc1 t).mp h)) (fun h => k2 ((hc2 t).mp h)) (fun h => k3 ((hc3 t).mp h))
            (fun h => k4 ((hc4 t).mp h)) (fun h => absurd ((hc5 t).mp h) (by omega)) _ _ _ _ _ _ _ _

/-! ## The staging memrefs and the scratch buffers -/

abbrev ms0 (t : Fin cfg0.N) : Memref sig .tc .vmem S1x1024x3 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1x3x1024 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S1x1x1 .f32 := win0_2.stage (cfg0.slots t 2)
abbrev hs2 (t : Fin cfg0.N) : (ms2 t).IsWhole := Facts₀.hstage0_2 ((cfg0.slots t 2).cast Facts₀.nbuf0_2)
abbrev scM0 : Memref sig .tc .vmem S1024x1 .f32 := Memref.whole cc0_scratch0
abbrev scM1 : Memref sig .tc .vmem S1x8192 .f32 := Memref.whole cc0_scratch1
abbrev scM2 : Memref sig .tc .vmem S1x1 .f32 := Memref.whole cc0_scratch2

/-- What the launch hands the region beside the windows: the three scratch buffers at some contents and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the scratch buffers hold after each point -/

/-- The scratch contents: row minima, column minima, total. -/
abbrev Scr (F : FTy → Type) [FloatOps F] : Type := Vec F S1024x1 .f32 × Vec F S1x8192 .f32 × Vec F S1x1 .f32

/-- One point's update of the scratch contents, on the point's input blocks. -/
def stepScr (c : Dev nD) (t : Fin cfg0.N) (s : Scr F) : Scr F :=
  (nextRow (grid0.coords t) (iblk m c 0 t) (iblk m c 1 t) s.1,
   nextCol (grid0.coords t) (iblk m c 0 t) (iblk m c 1 t) s.2.1,
   nextTot (grid0.coords t) (iblk m c 0 t) (iblk m c 1 t) s.1 s.2.1 s.2.2)

/-- At the first point of a batch the update does not depend on what it finds. -/
theorem stepScr_first (c : Dev nD) (t : Fin cfg0.N) (h : t.val % 64 = 0) (s s' : Scr F) : stepScr m c t s = stepScr m c t s' := by
  have h1 := (hc1 t).mpr h
  have h2 := (hc2 t).mpr (by omega)
  have h3 : ¬c3 (grid0.coords t) := fun h' => absurd ((hc3 t).mp h') (by omega)
  have h4 : ¬c4 (grid0.coords t) := fun h' => absurd ((hc4 t).mp h') (by omega)
  unfold stepScr nextTot tot1 tot0 nextCol colSlice col0 nextRow
  simp only [if_pos h1, if_pos h2, if_neg h3, if_neg h4]

/-- The scratch contents after position `n` of the grid. -/
def scrAt (c : Dev nD) : (n : ℕ) → n < cfg0.N → Scr F
  | 0, hn => stepScr m c ⟨0, hn⟩ (k0_pay9, k0_pay8, k0_pay7)
  | n + 1, hn => stepScr m c ⟨n + 1, hn⟩ (scrAt c n (Nat.lt_of_succ_lt hn))

theorem scrAt_pos (c : Dev nD) (t : Fin cfg0.N) (hz : t.val ≠ 0) :
    scrAt m c t.val t.isLt = stepScr m c t (scrAt m c (t.val - 1) (Nat.lt_of_le_of_lt (Nat.sub_le _ _) t.isLt)) := by
  obtain ⟨n, hn⟩ := t
  cases n with
  | zero => exact absurd rfl hz
  | succ n => rfl

theorem scrAt_zero (c : Dev nD) (t : Fin cfg0.N) (hz : t.val = 0) (s : Scr F) : scrAt m c t.val t.isLt = stepScr m c t s := by
  obtain ⟨n, hn⟩ := t
  cases n with
  | zero => exact stepScr_first m c ⟨0, hn⟩ rfl _ _
  | succ n => exact absurd hz (Nat.succ_ne_zero n)

/-- The region invariant before position `n`: before the first point what the launch hands over; afterwards the three
    scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare (scrAt m c n hn).1 ∗ owns (c : Thread nD τ) scM1 fullShare (scrAt m c n hn).2.1 ∗ owns (c : Thread nD τ) scM2 fullShare (scrAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (scrAt m c n hn).1 ∗ owns (c : Thread nD τ) scM1 fullShare (scrAt m c n hn).2.1 ∗ owns (c : Thread nD τ) scM2 fullShare (scrAt m c n hn).2.2) ∗ (∃ r, prngReg c r)) := rfl
theorem PhiS_pos (c : Dev nD) (n : ℕ) (h : n ≤ cfg0.N) (hz : n ≠ 0) :
    PhiS m c n h = iprop(iprop(owns (c : Thread nD τ) scM0 fullShare (scrAt m c (n - 1) (by omega)).1 ∗ owns (c : Thread nD τ) scM1 fullShare (scrAt m c (n - 1) (by omega)).2.1 ∗ owns (c : Thread nD τ) scM2 fullShare (scrAt m c (n - 1) (by omega)).2.2) ∗ (∃ r, prngReg c r)) := by
  cases n with
  | zero => exact absurd rfl hz
  | succ n => rfl

/-! ## The pipeline's proof data -/

/-- The arrays as the region finds them; after the body each input's buffer at its block and the output's at the total
    of that point copied out (consulted only at the last point of a batch); the invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay6 (scrAt m c t.val t.isLt).2.2
    | ⟨_ + 3, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay6 (scrAt m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the inputs' memrefs hold their blocks; the invariant hands the body the scratch buffers at what
    the point before left (at anything before the first point) and takes them back at this point's contents; the output's
    buffer is handed back as found except at the last point of a batch, where it holds the total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  have hN : t.val < 256 := lt_of_lt_of_eq t.isLt (show cfg0.N = 256 from N_0)
  by_cases h5 : t.val % 64 = 63
  · have hz : t.val ≠ 0 := by omega
    rw [show (dats m 0 c).leavesExact 2 t = owns (c : Thread nD τ) (ms2 t) fullShare ((dats m 0 c).after 2 t) from by
      unfold Dat.leavesExact; rw [live2 t h5], after0_2]
    rw [scrAt_pos m c t hz]
    rw [PhiS_castSucc m c t, PhiS_pos m c _ _ hz]
    unfold stepScr; dsimp only
    iintro ⟨⟨⟨HS0, HS1, HS2⟩, Hg⟩, Ho, ⟨%d0, H0⟩, ⟨%d1, H1⟩, ⟨%d2, H2⟩⟩
    iapply (body_run c t (ms0 t) (hs0 t) (ms1 t) (hs1 t) (ms2 t) (hs2 t) scM0 (Memref.isWhole_whole _) scM1 (Memref.isWhole_whole _) scM2 (Memref.isWhole_whole _)
      (iblk m c 0 t) (iblk m c 1 t) _ _ _ _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    rw [show nextOut (grid0.coords t) (iblk m c 0 t) (iblk m c 1 t) _ _ _ _ = k0_pay6 _ from if_pos ((hc5 t).mpr h5)]
    iexact H2
  · rw [Dat.leavesExact_idle (dats m 0 c) 2 t (idle2 t h5) (noFlush2 t h5)]
    by_cases hz : t.val = 0
    · rw [PhiS_castSucc m c t, PhiS_zero m c _ _ hz, PhiA0_eq]
      iintro ⟨⟨⟨⟨%e0, HS0⟩, ⟨%e1, HS1⟩, ⟨%e2, HS2⟩⟩, Hg⟩, Ho, ⟨%d0, H0⟩, ⟨%d1, H1⟩, ⟨%d2, H2⟩⟩
      rw [scrAt_zero m c t hz (e0, e1, e2)]
      unfold stepScr; dsimp only
      iapply (body_run c t (ms0 t) (hs0 t) (ms1 t) (hs1 t) (ms2 t) (hs2 t) scM0 (Memref.isWhole_whole _) scM1 (Memref.isWhole_whole _) scM2 (Memref.isWhole_whole _)
        (iblk m c 0 t) (iblk m c 1 t) _ e0 e1 e2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      rw [show nextOut (grid0.coords t) (iblk m c 0 t) (iblk m c 1 t) _ _ _ _ = _ from if_neg (fun h => h5 ((hc5 t).mp h))]
      iexists _; iexact H2
    · rw [scrAt_pos m c t hz]
      rw [PhiS_castSucc m c t, PhiS_pos m c _ _ hz]
      unfold stepScr; dsimp only
      iintro ⟨⟨⟨HS0, HS1, HS2⟩, Hg⟩, Ho, ⟨%d0, H0⟩, ⟨%d1, H1⟩, ⟨%d2, H2⟩⟩
      iapply (body_run c t (ms0 t) (hs0 t) (ms1 t) (hs1 t) (ms2 t) (hs2 t) scM0 (Memref.isWhole_whole _) scM1 (Memref.isWhole_whole _) scM2 (Memref.isWhole_whole _)
        (iblk m c 0 t) (iblk m c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      rw [show nextOut (grid0.coords t) (iblk m c 0 t) (iblk m c 1 t) _ _ _ _ = _ from if_neg (fun h => h5 ((hc5 t).mp h))]
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the scratch buffers' contents forgotten. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, faulting nowhere, with every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Final.lean ====
/-
  What the kernel's result array holds after the run, and what the host lines after the region make of it.

  The output window's block at a point of batch `b` is the one element `(b, 0, 0)` of the [4, 1, 1] result array, and the
  pipeline writes it back only after the last point of the batch, when it holds the running total copied out. So element
  `(b, 0, 0)` ends at the total after point `64 b + 63`. The host then reshapes the array to a 4-vector, sums it and
  divides by 4.
-/
import proofs.«180826_j62723702391632_2_alg».proof.Proof.KI.Frame
import Idealize.ShloMosaic.Lib.Pipeline.Value
import Idealize.ShloMosaic.Lib.ValueIdx
import Idealize.ShloMosaic.Lib.StableHlo.Run

set_option maxRecDepth 16384

noncomputable section

namespace Cert.KernelIdeal.BodyValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's blocks over the grid: block `(t / 64, 0, 0)`, of one element. -/
theorem idx2 : ∀ t : Fin cfg0.N, win0_2.index t 0 = t.val / 64 ∧ win0_2.index t 1 = 0 ∧ win0_2.index t 2 = 0 :=
  (by decide +kernel : ∀ t : Fin grid0.N, win0_2.index t 0 = t.val / 64 ∧ win0_2.index t 1 = 0 ∧ win0_2.index t 2 = 0)

theorem sz2 : ∀ a, win0_2.size a = 1 := by decide
theorem xs2 : ∀ (t : Fin cfg0.N) a, win0_2.xsize (grid0.coords t) a = 1 :=
  (by decide +kernel : ∀ (t : Fin grid0.N) a, win0_2.xsize (grid0.coords t) a = 1)

theorem scrAt_congr (c : Dev nD) {n n' : ℕ} (e : n = n') (h : n < cfg0.N) (h' : n' < cfg0.N) : scrAt m c n h = scrAt m c n' h' := by
  subst e; rfl

theorem lastPt_lt (b : Fin 4) : 64 * b.val + 63 < cfg0.N := by
  rw [show cfg0.N = 256 from N_0]; have := b.isLt; omega

/-- The total after the last point of batch `b`, copied out. -/
def outAt (c : Dev nD) (b : Fin 4) : Vec F S1x1x1 .f32 := k0_pay6 (scrAt m c (64 * b.val + 63) (lastPt_lt b)).2.2

/-- The result array after the run: element `(b, 0, 0)` is batch `b`'s total. -/
def G (c : Dev nD) : Buf (Elt F) ((c : Thread nD τ).loc main_v1) := fun i => outAt m c (i 0) (ix3 0 0 0)

instance : Subsingleton S1x1x1.Idx := ⟨fun a b => funext fun d => Fin.ext (by have := (a d).isLt; have := (b d).isLt; fin_cases d <;> simp_all <;> omega)⟩

theorem flushed_eq (c : Dev nD) (t : Fin cfg0.N) (hf : (cfg0.win 2).flush t = true) :
    (dats m 0 c).flushed 2 t = ((cfg0.win 2).blk t).view.read (Elt F) (G m c) := by
  have hN : t.val < 256 := lt_of_lt_of_eq t.isLt (show cfg0.N = 256 from N_0)
  have h63 := (flush0_2 t).mp hf
  show (cfg0.win 2).cut (grid0.coords t) ((dats m 0 c).after 2 t) = _
  rw [after0_2]
  funext y
  rw [View.read_apply]
  show k0_pay6 (scrAt m c t.val t.isLt).2.2 y = G m c (((cfg0.win 2).blk t).view.emb y)
  have he : (((cfg0.win 2).blk t).view.emb y 0).val = t.val / 64 := by
    show win0_2.index t 0 * 1 + 1 * (y 0).val = t.val / 64
    have hy0 : (y 0).val = 0 := by have : (y 0).val < 1 := (y 0).isLt; omega
    rw [(idx2 t).1, hy0]; omega
  have hy : y = (ix3 0 0 0 : S1x1x1.Idx) := Subsingleton.elim (α := S1x1x1.Idx) y _
  unfold G outAt
  rw [scrAt_congr m c (show 64 * (((cfg0.win 2).blk t).view.emb y 0).val + 63 = t.val from by rw [he]; omega) _ t.isLt, hy]

/-- Every element of the result array is in the block written back after the last point of its batch. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hb : (i 0).val < 4 := (i 0).isLt
  let t0 : Fin cfg0.N := ⟨64 * (i 0).val + 63, lastPt_lt ⟨(i 0).val, hb⟩⟩
  refine ⟨t0, (flush0_2 t0).mpr (by show (64 * (i 0).val + 63) % 64 = 63; omega), ?_⟩
  show i ∈ ((View.whole main_v1).slice (win0_2.rect t0)).set
  rw [View.set_slice_whole, Rect.mem_set_unit]
  intro a
  have hv : t0.val = 64 * (i 0).val + 63 := rfl
  have hi1 : (i 1).val < 1 := (i 1).isLt
  have hi2 : (i 2).val < 1 := (i 2).isLt
  match a with
  | ⟨0, _⟩ =>
    show win0_2.index t0 0 * win0_2.size 0 ≤ (i 0).val ∧ (i 0).val < win0_2.index t0 0 * win0_2.size 0 + win0_2.xsize (grid0.coords t0) 0
    rw [(idx2 t0).1, sz2 0, xs2 t0 0, hv]; omega
  | ⟨1, _⟩ =>
    show win0_2.index t0 1 * win0_2.size 1 ≤ (i 1).val ∧ (i 1).val < win0_2.index t0 1 * win0_2.size 1 + win0_2.xsize (grid0.coords t0) 1
    rw [(idx2 t0).2.1, sz2 1, xs2 t0 1]; omega
  | ⟨2, _⟩ =>
    show win0_2.index t0 2 * win0_2.size 2 ≤ (i 2).val ∧ (i 2).val < win0_2.index t0 2 * win0_2.size 2 + win0_2.xsize (grid0.coords t0) 2
    rw [(idx2 t0).2.2, sz2 2, xs2 t0 2]; omega

/-- So the result array ends with batch `b`'s total at `(b, 0, 0)`. -/
theorem final2 (c : Dev nD) : (dats m 0 c).arrAt 2 cfg0.N = G m c :=
  (dats m 0 c).arrAt_eq_of_cover 2 (G m c) (flushed_eq m c) (cover2 c)

/-- The host lines after the region: the 4-vector of totals summed from zero and divided by 4. -/
def tailMean (X : Vec F S4 .f32) : Vec F S_ .f32 :=
  Host.divf (Host.reduceAdd X (constant (F := F) S_ .f32 0x00000000#32) Facts₀.reducesTo_S4_S_d0 Facts₀.h_S_) (constant (F := F) S_ .f32 0x40800000#32)

theorem tail_eq (c : Dev nD) :
    Pipeline.afterTail₀ cfgs (dats m) 0 (V0 m) [hostOps1] c main_v4 = tailMean (shapeCast S4 (G m c) Facts₀.shapeCasts_S4x1x1_S4) := by
  unfold Pipeline.afterTail₀
  show StableHlo.after hostOps1 _ (Proc.devRef .tc main_v4) = _
  after_results
  rw [(Pipeline.withArrays_arr spec0 launch0.win.arr_inj c _ _ 2).trans (final2 m c)]
  rfl

end Cert.KernelIdeal.BodyValue

end
-- ==== Proof.ChamferSpec.lean ====
/-
  The Chamfer distance of one batch, as mathematics over the extended reals, and the tiled recursion a blocked
  evaluation follows.

  For a matrix `D n m` of squared distances between 8192 query points and 8192 key points, the forward term is the
  sum over queries of the minimum over keys, the backward term the sum over keys of the minimum over queries, and the
  Chamfer distance is their sum after each is scaled by 1/8192 (the mean).

  A blocked evaluation walks an 8 × 8 grid of 1024 × 1024 tiles, row of tiles by row of tiles. It keeps three running
  quantities: the minimum so far of each query row of the current row of tiles, the minimum so far of every key column,
  and a running total. `step` is one tile's update; `run` iterates it over the 64 tiles in order.
-/
import Mathlib.Data.EReal.Basic
import Mathlib.Data.EReal.Operations
import Mathlib.Algebra.BigOperators.Fin
import Mathlib.Order.Fin.Basic

noncomputable section

namespace Chamfer

open Finset

/-- The mean's factor 1/8192. -/
def c : EReal := ((1 / 8192 : ℝ) : EReal)

/-- Sum over the queries of the distance to the nearest key. -/
def fwd (D : Fin 8192 → Fin 8192 → EReal) : EReal := ∑ n, univ.inf (fun m => D n m)
/-- Sum over the keys of the distance to the nearest query. -/
def bwd (D : Fin 8192 → Fin 8192 → EReal) : EReal := ∑ m, univ.inf (fun n => D n m)
/-- The Chamfer distance of one batch: the two means added. -/
def chamfer (D : Fin 8192 → Fin 8192 → EReal) : EReal := fwd D * c + bwd D * c

/-- The squared distance between query `n` and key `m` of batch `b`: the sum over the three coordinates of the squared
    difference, added left to right. -/
def Dist (p q : Fin 4 → Fin 8192 → Fin 3 → EReal) (b : Fin 4) (n m : Fin 8192) : EReal :=
  (p b n 0 - q b m 0) * (p b n 0 - q b m 0) + (p b n 1 - q b m 1) * (p b n 1 - q b m 1)
    + (p b n 2 - q b m 2) * (p b n 2 - q b m 2)

/-- Entry `r` of tile `i` along an axis of 8 tiles of 1024. -/
def tile (i : Fin 8) (r : Fin 1024) : Fin 8192 := ⟨1024 * i.val + r.val, by omega⟩

/-- The running quantities. -/
structure St where
  rowMin : Fin 1024 → EReal
  colMin : Fin 8192 → EReal
  tot : EReal

/-- One tile `(i, j)`: reset the total and the column minima at the first tile, the row minima at the start of each row
    of tiles; fold the tile's row minima and column minima in; at the end of a row of tiles add the row minima's sum,
    in the last row of tiles add the finished column minima's sum, each scaled by 1/8192. -/
def step (D : Fin 8192 → Fin 8192 → EReal) (i j : Fin 8) (s : St) : St :=
  let tot0 : EReal := if i = 0 ∧ j = 0 then 0 else s.tot
  let col0 : Fin 8192 → EReal := if i = 0 ∧ j = 0 then fun _ => ⊤ else s.colMin
  let row0 : Fin 1024 → EReal := if j = 0 then fun _ => ⊤ else s.rowMin
  let row1 : Fin 1024 → EReal := fun r => min (row0 r) (univ.inf fun k : Fin 1024 => D (tile i r) (tile j k))
  let col1 : Fin 8192 → EReal := fun m =>
    if m.val / 1024 = j.val then min (col0 m) (univ.inf fun r : Fin 1024 => D (tile i r) m) else col0 m
  let tot1 : EReal := if j = 7 then tot0 + (∑ r, row1 r) * c else tot0
  let tot2 : EReal := if i = 7 then tot1 + (∑ k : Fin 1024, col1 (tile j k)) * c else tot1
  ⟨row1, col1, tot2⟩

/-- The tile visited at position `k` of the walk: row of tiles `k / 8`, tile `k % 8` in it. -/
def tileRow (k : ℕ) : Fin 8 := ⟨k / 8 % 8, Nat.mod_lt _ (by norm_num)⟩
def tileCol (k : ℕ) : Fin 8 := ⟨k % 8, Nat.mod_lt _ (by norm_num)⟩

/-- The walk over the tiles in order, from any starting contents (the first tile resets them all). -/
def run (D : Fin 8192 → Fin 8192 → EReal) (init : St) : ℕ → St
  | 0 => step D 0 0 init
  | k + 1 => step D (tileRow (k + 1)) (tileCol (k + 1)) (run D init k)

end Chamfer

end
-- ==== Proof.KI.Blocks.lean ====
/-
  The two input blocks read at an index.

  At grid point `t` (batch `t / 64`, row of tiles `t / 8 % 8`, column of tiles `t % 8`) the first window's block is the
  1024 query points of that row of tiles of that batch, and the second window's block is the 1024 key points of that
  column of tiles, read through the transposed copy of the key array that the host made before the region: entry
  `(0, d, k)` of that block is coordinate `d` of key point `1024 (t % 8) + k`.
-/
import proofs.«180826_j62723702391632_2_alg».proof.Proof.Gen.KernelIdeal.Frame
import proofs.«180826_j62723702391632_2_alg».proof.Proof.ChamferSpec
import Idealize.ShloMosaic.Lib.StableHlo.Run
import Idealize.ShloMosaic.Lib.ValueLayout
import Idealize.ShloMosaic.Lib.Tactic

set_option maxRecDepth 16384

noncomputable section

namespace Cert.KernelIdeal.BodyValue

open Idealize.ShloMosaic Idealize.ShloMosaic.TcCoe Idealize.SL.Sem
open Cert.KernelIdeal Cert.KernelIdeal.Gen Idealize.ShloMosaic.ValueIdx

variable {F : FTy → Type} [FloatOps F]
variable (m : (ℓ : Loc nD τ sig) → Buf (Elt F) ℓ)

/-- The first window's block index at every grid point: batch, row of tiles, 0. -/
theorem idx0 : ∀ t : Fin cfg0.N,
    win0_0.index t 0 = t.val / 64 ∧ win0_0.index t 1 = t.val / 8 % 8 ∧ win0_0.index t 2 = 0 :=
  (by decide +kernel : ∀ t : Fin grid0.N,
    win0_0.index t 0 = t.val / 64 ∧ win0_0.index t 1 = t.val / 8 % 8 ∧ win0_0.index t 2 = 0)

/-- The second window's block index at every grid point: batch, 0, column of tiles. -/
theorem idx1 : ∀ t : Fin cfg0.N,
    win0_1.index t 0 = t.val / 64 ∧ win0_1.index t 1 = 0 ∧ win0_1.index t 2 = t.val % 8 :=
  (by decide +kernel : ∀ t : Fin grid0.N,
    win0_1.index t 0 = t.val / 64 ∧ win0_1.index t 1 = 0 ∧ win0_1.index t 2 = t.val % 8)

/-- A grid point's batch is one of the four. -/
theorem batch_lt (t : Fin cfg0.N) : t.val / 64 < 4 := by
  have h : cfg0.N = 256 := N_0
  have := t.isLt
  omega

/-- The array the second window reads is the key array with its last two axes exchanged. -/
theorem V_main_v0 (c : Dev nD) :
    (V m c main_v0 : S4x3x8192.Idx → Elt F .f32)
      = transpose S4x3x8192 [0, 2, 1] (m ((c : Thread nD τ).loc main_arg1))
          Facts₀.transposes_S4x8192x3_S4x3x8192_0_2_1 := by
  show StableHlo.after hostOps0 (fun b => m (c, b)) (Proc.devRef .tc main_v0) = _
  after_results

/-- Entry `(0, r, d)` of the first window's block at point `t`: coordinate `d` of query point `r` of the point's row of
    tiles, in the point's batch. -/
theorem iblk0_apply (c : Dev nD) (t : Fin cfg0.N) (r : Fin 1024) (d : Fin 3) :
    (iblk m c 0 t : Vec F S1x1024x3 .f32) (ix3 0 r d)
      = m ((c : Thread nD τ).loc main_arg0)
          (ix3 ⟨t.val / 64, batch_lt t⟩ (Chamfer.tile (Chamfer.tileRow t.val) r) d) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * (0 : Fin 1).val = t.val / 64; rw [hi.1]; simp
  | ⟨1, _⟩ => show win0_0.index t 1 * 1024 + 1 * r.val = 1024 * (t.val / 8 % 8) + r.val; rw [hi.2.1]; omega
  | ⟨2, _⟩ => show win0_0.index t 2 * 3 + 1 * d.val = d.val; rw [hi.2.2]; omega

/-- Entry `(0, d, k)` of the second window's block at point `t`: coordinate `d` of key point `k` of the point's column
    of tiles, in the point's batch. -/
theorem iblk1_apply (c : Dev nD) (t : Fin cfg0.N) (d : Fin 3) (k : Fin 1024) :
    (iblk m c 1 t : Vec F S1x3x1024 .f32) (ix3 0 d k)
      = m ((c : Thread nD τ).loc main_arg1)
          (ix3 ⟨t.val / 64, batch_lt t⟩ (Chamfer.tile (Chamfer.tileCol t.val) k) d) := by
  have hi := idx1 t
  unfold iblk
  rw [View.read_apply]
  show (V m c main_v0 : S4x3x8192.Idx → Elt F .f32) _ = m (c.tc.loc main_arg1) _
  rw [V_main_v0]
  rw [← transpose_ix3_021_apply (m ((c : Thread nD τ).loc main_arg1))
    Facts₀.transposes_S4x8192x3_S4x3x8192_0_2_1 ⟨t.val / 64, batch_lt t⟩ d (Chamfer.tile (Chamfer.tileCol t.val) k)]
  congr 1
  funext a
  apply Fin.ext
  match a with
  | ⟨0, _⟩ => show win0_1.index t 0 * 1 + 1 * (0 : Fin 1).val = t.val / 64; rw [hi.1]; simp
  | ⟨1, _⟩ => show win0_1.index t 1 * 3 + 1 * d.val = d.val; rw [hi.2.1]; omega
  | ⟨2, _⟩ => show win0_1.index t 2 * 1024 + 1 * k.val = 1024 * (t.val % 8) + k.val; rw [hi.2.2]; omega

end Cert.KernelIdeal.BodyValue

end
-- ==== Proof.KI.ValueStepA.lean ====
/-
  One grid point of the kernel, its integer side: the branch conditions as facts about the tile's row and column, the
  offset of the tile's columns, and the float words the body spells.
-/
import proofs.«180826_j62723702391632_2_alg».proof.Proof.KI.Step
import proofs.«180826_j62723702391632_2_alg».proof.Proof.ChamferSpec
import Idealize.ShloMosaic.PureOps.Ideal.Laws
import Idealize.ShloMosaic.Lib.ValueIdx
import Idealize.ShloMosaic.Lib.ValueLayout

noncomputable section

namespace Cert.KernelIdeal.BodyValue

open Idealize.ShloMosaic Idealize.ShloMosaic.ValueIdx
open Cert.KernelIdeal Cert.KernelIdeal.Gen Cert.KernelIdeal.Body

theorem c1_iff (i : grid0.Coords) (a b : Fin 8) (ha : (i 1).val = a.val) (hb : (i 2).val = b.val) :
    c1 i ↔ (a = 0 ∧ b = 0) := by
  show (Scalar.cmpi .ne (Scalar.extui (Scalar.andi (Scalar.cmpi .eq (BitVec.ofNat 32 (i 1).val) 0#32) (Scalar.cmpi .eq (BitVec.ofNat 32 (i 2).val) 0#32))) 0#32) = 1#1 ↔ _
  rw [ha, hb]
  clear ha hb
  revert a b
  decide

theorem c2_iff (i : grid0.Coords) (b : Fin 8) (hb : (i 2).val = b.val) : c2 i ↔ b = 0 := by
  show (Scalar.cmpi .ne (Scalar.extui (Scalar.cmpi .eq (BitVec.ofNat 32 (i 2).val) 0#32)) 0#32) = 1#1 ↔ _
  rw [hb]
  clear hb
  revert b
  decide

theorem c3_iff (i : grid0.Coords) (b : Fin 8) (hb : (i 2).val = b.val) : c3 i ↔ b = 7 := by
  show (Scalar.cmpi .ne (Scalar.extui (Scalar.cmpi .eq (BitVec.ofNat 32 (i 2).val) 7#32)) 0#32) = 1#1 ↔ _
  rw [hb]
  clear hb
  revert b
  decide

theorem c4_iff (i : grid0.Coords) (a : Fin 8) (ha : (i 1).val = a.val) : c4 i ↔ a = 7 := by
  show (Scalar.cmpi .ne (Scalar.extui (Scalar.cmpi .eq (BitVec.ofNat 32 (i 1).val) 7#32)) 0#32) = 1#1 ↔ _
  rw [ha]
  clear ha
  revert a
  decide

/-- The tile's columns start at 1024 times the tile's column. -/
theorem off1_eq (i : grid0.Coords) (b : Fin 8) (hb : (i 2).val = b.val) : k0_off1 i = ![0, 1024 * b.val] := by
  unfold k0_off1
  dsimp only
  rw [hb]
  have h : ∀ b : Fin 8, (Scalar.indexCast (Scalar.muli (BitVec.ofNat 32 b.val) 1024#32)).toNat = 1024 * b.val := by decide
  rw [h b]

/-- The word of 1/8192. -/
theorem ofBits_inv8192 : Ideal.ofBits .f32 0x39000000#32 = Chamfer.c := by
  unfold Chamfer.c
  simp [Ideal.ofBits, Ideal.ieee, -EReal.coe_mul]; norm_num

/-- The word of +inf denotes the top element. -/
theorem ofBits_inf : Ideal.ofBits .f32 0x7F800000#32 = (⊤ : EReal) := by
  simp [Ideal.ofBits, Ideal.ieee]

/-- The fold of `min` from the top element is the infimum. -/
theorem fold_min_top_eq_inf {ι : Type} (s : Finset ι) (f : ι → EReal) :
    s.fold (min : EReal → EReal → EReal) ⊤ f = s.inf f := by
  classical
  induction s using Finset.induction_on with
  | empty => rfl
  | insert a s ha ih => rw [Finset.fold_insert ha, Finset.inf_insert, ih]

/-- A minimum reduction over one axis from +inf, at a reduced index, is the infimum over that axis's coordinates. -/
theorem minRed_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).inf (src ∘ h.lift j) := by
  rw [multiReduction_minimumf_eq_fold]
  refine (h.fold_filter_drop_single _ _ src j).trans ?_
  rw [Ideal.ofBits_def, ofBits_inf]
  exact fold_min_top_eq_inf _ _

end Cert.KernelIdeal.BodyValue

end
-- ==== Proof.KI.ValueStepB.lean ====
/-
  One grid point of the kernel, its float side: each payload of the body read at an index. The tile of squared
  distances, the row and column minima folded into the earlier ones, the scaled sums added to the total, the resets.
-/
import proofs.«180826_j62723702391632_2_alg».proof.Proof.KI.ValueStepA

noncomputable section

namespace Cert.KernelIdeal.BodyValue

open Idealize.ShloMosaic Idealize.ShloMosaic.ValueIdx
open Cert.KernelIdeal Cert.KernelIdeal.Gen Cert.KernelIdeal.Body

theorem scalar_ofBits (b : BitVec 32) : Scalar.ofBits (F := Ideal) .f32 b = Ideal.ofBits .f32 b := rfl

/-- Coordinate d of query r of the block, broadcast along the keys. -/
theorem qcol_apply (x0 : Vec Ideal S1x1024x3 .f32) (h1 : S1x1024x3.ShapeCasts S1024x3) (o : Nat)
    (h2 : S1024x3.Slices ![0, o] S1024x1) (h3 : S1024x1.Broadcasts S1024x1024) (d : Fin 3) (hd : d.val = o)
    (r k : Fin 1024) :
    broadcastTo S1024x1024 (extractStridedSlice S1024x1 ![0, o] (shapeCast S1024x3 x0 h1) h2) h3 (ix2 r k)
      = x0 (ix3 0 r d) := by
  refine (broadcastTo_apply _ h3 (ix2 r k) (ix2 r (0 : Fin 1)) (fun a => ?_)).trans ?_
  · match a with
    | ⟨0, _⟩ => show r.val = if (1024 : Nat) = 1 then 0 else r.val; rw [if_neg (by decide)]
    | ⟨1, _⟩ => show 0 = if (1 : Nat) = 1 then 0 else _; rw [if_pos rfl]
  refine (slice2_axis1_apply o _ h2 r (0 : Fin 1) d (by rw [hd]; rfl)).trans ?_
  exact shapeCast_1ab_ab_apply x0 h1 r d

/-- Coordinate d of key k of the block, broadcast along the queries. -/
theorem krow_apply (x1 : Vec Ideal S1x3x1024 .f32) (h1 : S1x3x1024.ShapeCasts S3x1024) (o : Nat)
    (h2 : S3x1024.Slices ![o, 0] S1x1024) (h3 : S1x1024.Broadcasts S1024x1024) (d : Fin 3) (hd : d.val = o)
    (r k : Fin 1024) :
    broadcastTo S1024x1024 (extractStridedSlice S1x1024 ![o, 0] (shapeCast S3x1024 x1 h1) h2) h3 (ix2 r k)
      = x1 (ix3 0 d k) := by
  refine (broadcastTo_1b_ab_apply _ h3 r k).trans ?_
  refine (slice2_axis0_apply o _ h2 (0 : Fin 1) k d (by rw [hd]; rfl)).trans ?_
  exact shapeCast_1ab_ab_apply x1 h1 d k

/-- The tile of squared distances at (r, k). -/
theorem pay10_apply (x0 : Vec Ideal S1x1024x3 .f32) (x1 : Vec Ideal S1x3x1024 .f32) (r k : Fin 1024) :
    k0_pay10 (F := Ideal) x0 x1 (ix2 r k)
      = (0 + (x0 (ix3 0 r 0) - x1 (ix3 0 0 k)) * (x0 (ix3 0 r 0) - x1 (ix3 0 0 k)))
        + (x0 (ix3 0 r 1) - x1 (ix3 0 1 k)) * (x0 (ix3 0 r 1) - x1 (ix3 0 1 k))
        + (x0 (ix3 0 r 2) - x1 (ix3 0 2 k)) * (x0 (ix3 0 r 2) - x1 (ix3 0 2 k)) := by
  unfold k0_pay10
  simp only [addf_apply, mulf_apply, subf_apply, broadcast_apply]
  rw [qcol_apply x0 _ 0 _ _ 0 rfl r k, qcol_apply x0 _ 1 _ _ 1 rfl r k, qcol_apply x0 _ 2 _ _ 2 rfl r k,
    krow_apply x1 _ 0 _ _ 0 rfl r k, krow_apply x1 _ 1 _ _ 1 rfl r k, krow_apply x1 _ 2 _ _ 2 rfl r k,
    scalar_ofBits, Ideal.ofBits_zero_f32]

/-- An [a] vector viewed as an [a, 1] column reads its entry. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row minima: the earlier ones against the tile's minimum over its keys. -/
theorem pay11_apply (x0 : Vec Ideal S1x1024x3 .f32) (x1 : Vec Ideal S1x3x1024 .f32) (s : Vec Ideal S1024x1 .f32)
    (r : Fin 1024) :
    k0_pay11 (F := Ideal) x0 x1 s (ix2 r 0)
      = min (s (ix2 r 0)) (Finset.univ.inf fun k : Fin 1024 => k0_pay10 (F := Ideal) x0 x1 (ix2 r k)) := by
  unfold k0_pay11
  refine (minimumf_apply _ _ _).trans ?_
  refine congrArg (min (s (ix2 r 0))) ?_
  refine (shapeCast_a_a1_apply _ _ r 0).trans ?_
  refine (minRed_single _ _ _ _ (ix1 r)).trans ?_
  exact Finset.inf_congr rfl fun k _ => congrArg (k0_pay10 (F := Ideal) x0 x1)
    (funext fun d => Fin.ext (by match d with | ⟨0, _⟩ => rfl | ⟨1, _⟩ => rfl))

/-- The column minima: the earlier ones against the tile's minimum over its queries. -/
theorem pay2_apply (v33 : FVec Ideal S1024x1024 .f32) (v46 : Vec Ideal S1x1024 .f32) (k : Fin 1024) :
    k0_pay2 (F := Ideal) v33 v46 (ix2 0 k)
      = min (v46 (ix2 0 k)) (Finset.univ.inf fun r : Fin 1024 => v33 (ix2 r k)) := by
  unfold k0_pay2
  refine (minimumf_apply _ _ _).trans ?_
  refine congrArg (min (v46 (ix2 0 k))) ?_
  refine (shapeCast_a_1a_apply _ _ 0 k).trans ?_
  refine (minRed_single _ _ _ _ (ix1 k)).trans ?_
  exact Finset.inf_congr rfl fun r _ => congrArg v33
    (funext fun d => Fin.ext (by match d with | ⟨0, _⟩ => rfl | ⟨1, _⟩ => rfl))

theorem pay3_eq (v33 : FVec Ideal S1024x1024 .f32) (v46 : Vec Ideal S1x1024 .f32) :
    k0_pay3 (F := Ideal) v33 v46 = k0_pay2 (F := Ideal) v33 v46 := by
  unfold k0_pay3
  exact shapeCast_self _ _

theorem pay1_eq (v : FVec Ideal S1024x1 .f32) : k0_pay1 (F := Ideal) v = v := by
  unfold k0_pay1
  exact shapeCast_self _ _

/-- The row minima's sum, scaled, added to the total. -/
theorem pay4_apply (v63 : Vec Ideal S1x1 .f32) (v64 : Vec Ideal S1024x1 .f32) :
    k0_pay4 (F := Ideal) v63 v64 (ix2 0 0) = v63 (ix2 0 0) + (∑ r : Fin 1024, v64 (ix2 r 0)) * Chamfer.c := by
  unfold k0_pay4
  refine (congrFun (shapeCast_self _ _) _).trans ?_
  simp only [addf_apply, mulf_apply, broadcast_apply, scalar_ofBits, ofBits_inv8192]
  congr 2
  refine (shapeCast_a_1a_apply _ _ 0 0).trans ?_
  refine (Ideal.multiReduction_add_single _ _ _ _ _ (ix1 0)).trans ?_
  exact Finset.sum_congr rfl fun r _ => congrArg v64
    (funext fun d => Fin.ext (by match d with | ⟨0, _⟩ => rfl | ⟨1, _⟩ => rfl))

/-- The column minima's sum, scaled, added to the total. -/
theorem pay5_apply (v33 : FVec Ideal S1024x1024 .f32) (v46 : Vec Ideal S1x1024 .f32) (v63 : Vec Ideal S1x1 .f32) :
    k0_pay5 (F := Ideal) v33 v46 v63 (ix2 0 0)
      = v63 (ix2 0 0) + (∑ k : Fin 1024, k0_pay2 (F := Ideal) v33 v46 (ix2 0 k)) * Chamfer.c := by
  unfold k0_pay5
  refine (congrFun (shapeCast_self _ _) _).trans ?_
  simp only [addf_apply, mulf_apply, broadcast_apply, scalar_ofBits, ofBits_inv8192]
  congr 2
  refine (shapeCast_a_1a_apply _ _ 0 0).trans ?_
  refine (Ideal.multiReduction_add_single _ _ _ _ _ (ix1 0)).trans ?_
  exact Finset.sum_congr rfl fun k _ => congrArg (k0_pay2 (F := Ideal) v33 v46)
    (funext fun d => Fin.ext (by match d with | ⟨0, _⟩ => rfl | ⟨1, _⟩ => rfl))

/-- The total copied out. -/
theorem pay6_apply (v : Vec Ideal S1x1 .f32) : k0_pay6 (F := Ideal) v (ix3 0 0 0) = v (ix2 0 0) := by
  unfold k0_pay6
  exact shapeCast_ab_1ab_apply v _ 0 0 0

theorem pay7_apply : k0_pay7 (F := Ideal) (ix2 0 0) = 0 := by
  unfold k0_pay7
  refine (congrFun (shapeCast_self _ _) _).trans ?_
  rw [broadcast_apply, scalar_ofBits, Ideal.ofBits_zero_f32]

theorem pay8_apply (m : Fin 8192) : k0_pay8 (F := Ideal) (ix2 0 m) = ⊤ := by
  unfold k0_pay8
  refine (congrFun (shapeCast_self _ _) _).trans ?_
  rw [broadcast_apply, scalar_ofBits, ofBits_inf]

theorem pay9_apply (r : Fin 1024) : k0_pay9 (F := Ideal) (ix2 r 0) = ⊤ := by
  unfold k0_pay9
  refine (congrFun (shapeCast_self _ _) _).trans ?_
  rw [broadcast_apply, scalar_ofBits, ofBits_inf]

end Cert.KernelIdeal.BodyValue

end
-- ==== Proof.KI.ValueStepC.lean ====
/-
  One grid point of the kernel is one step of the tiled recursion: with the query block holding the rows of the tile's
  row of tiles and the key block the columns of its column of tiles, the three buffers after the point are the running
  row minima, column minima and total after the step.
-/
import proofs.«180826_j62723702391632_2_alg».proof.Proof.KI.ValueStepB

noncomputable section

namespace Cert.KernelIdeal.BodyValue

open Idealize.ShloMosaic Idealize.ShloMosaic.ValueIdx
open Cert.KernelIdeal Cert.KernelIdeal.Gen Cert.KernelIdeal.Body

/-- The three buffers as the running quantities. -/
def asSt (s0 : Vec Ideal S1024x1 .f32) (s1 : Vec Ideal S1x8192 .f32) (s2 : Vec Ideal S1x1 .f32) : Chamfer.St :=
  ⟨fun r => s0 (ix2 r 0), fun m => s1 (ix2 0 m), s2 (ix2 0 0)⟩

/-! ### The step's components, written out -/

theorem step_rowMin (D : Fin 8192 → Fin 8192 → EReal) (a b : Fin 8) (s : Chamfer.St) (r : Fin 1024) :
    (Chamfer.step D a b s).rowMin r
      = min ((if b = 0 then (fun _ => (⊤ : EReal)) else s.rowMin) r)
          (Finset.univ.inf fun k : Fin 1024 => D (Chamfer.tile a r) (Chamfer.tile b k)) := rfl

theorem step_colMin (D : Fin 8192 → Fin 8192 → EReal) (a b : Fin 8) (s : Chamfer.St) (m : Fin 8192) :
    (Chamfer.step D a b s).colMin m
      = if m.val / 1024 = b.val then
          min ((if a = 0 ∧ b = 0 then (fun _ => (⊤ : EReal)) else s.colMin) m)
            (Finset.univ.inf fun r : Fin 1024 => D (Chamfer.tile a r) m)
        else (if a = 0 ∧ b = 0 then (fun _ => (⊤ : EReal)) else s.colMin) m := rfl

theorem step_tot (D : Fin 8192 → Fin 8192 → EReal) (a b : Fin 8) (s : Chamfer.St) :
    (Chamfer.step D a b s).tot
      = if a = 7 then
          (if b = 7 then (if a = 0 ∧ b = 0 then 0 else s.tot) + (∑ r, (Chamfer.step D a b s).rowMin r) * Chamfer.c
            else (if a = 0 ∧ b = 0 then 0 else s.tot))
            + (∑ k : Fin 1024, (Chamfer.step D a b s).colMin (Chamfer.tile b k)) * Chamfer.c
        else
          (if b = 7 then (if a = 0 ∧ b = 0 then 0 else s.tot) + (∑ r, (Chamfer.step D a b s).rowMin r) * Chamfer.c
            else (if a = 0 ∧ b = 0 then 0 else s.tot)) := rfl

theorem st_ext (s t : Chamfer.St) (h1 : s.rowMin = t.rowMin) (h2 : s.colMin = t.colMin) (h3 : s.tot = t.tot) : s = t := by
  cases s; cases t; simp only [Chamfer.St.mk.injEq]; exact ⟨h1, h2, h3⟩

/-! ### The tile's columns in the row of column minima -/

theorem putCols_aux (off : Fin 2 → ℕ) (bv : ℕ) (hoff : off = ![0, 1024 * bv]) (X : Vec Ideal S1x8192 .f32)
    (w : Vec Ideal S1x1024 .f32) (m : Fin 8192) :
    (if h : ∀ a, off a ≤ ((ix2 (0 : Fin 1) m : S1x8192.Idx) a).val
          ∧ ((ix2 (0 : Fin 1) m : S1x8192.Idx) a).val < off a + S1x1024.size a then
        w (Rect.unitLocal (s := S1x8192) (off := off) (size := S1x1024.size) (ix2 (0 : Fin 1) m) h)
      else X (ix2 0 m))
      = if h : 1024 * bv ≤ m.val ∧ m.val < 1024 * bv + 1024 then w (ix2 0 ⟨m.val - 1024 * bv, by omega⟩)
        else X (ix2 0 m) := by
  subst hoff
  by_cases h : 1024 * bv ≤ m.val ∧ m.val < 1024 * bv + 1024
  · have h' : ∀ a : Fin 2, (![0, 1024 * bv] : Fin 2 → ℕ) a ≤ ((ix2 (0 : Fin 1) m : S1x8192.Idx) a).val
        ∧ ((ix2 (0 : Fin 1) m : S1x8192.Idx) a).val < (![0, 1024 * bv] : Fin 2 → ℕ) a + S1x1024.size a := fun a =>
      match a with
      | ⟨0, _⟩ => ⟨Nat.le_refl 0, Nat.lt_add_one 0⟩
      | ⟨1, _⟩ => h
    rw [dif_pos h', dif_pos h]
    exact congrArg w (funext fun d => Fin.ext (by match d with | ⟨0, _⟩ => rfl | ⟨1, _⟩ => rfl))
  · rw [dif_neg h, dif_neg (fun h' => h (h' 1))]

theorem putCols_apply (i : grid0.Coords) (b : Fin 8) (hb : (i 2).val = b.val) (X : Vec Ideal S1x8192 .f32)
    (w : Vec Ideal S1x1024 .f32) (m : Fin 8192) :
    putCols i X w (ix2 0 m)
      = if h : 1024 * b.val ≤ m.val ∧ m.val < 1024 * b.val + 1024 then w (ix2 0 ⟨m.val - 1024 * b.val, by omega⟩)
        else X (ix2 0 m) := by
  unfold putCols
  exact putCols_aux (k0_off1 i) b.val (off1_eq i b hb) X w m

theorem ld_aux (off : Fin 2 → ℕ) (b : Fin 8) (hoff : off = ![0, 1024 * b.val])
    (inb : ∀ a, off a + S1x1024.size a ≤ S1x8192.size a) (X : Vec Ideal S1x8192 .f32) (k : Fin 1024) :
    View.ld X (Rect.unit (s := S1x8192) off S1x1024.size inb) (ix2 0 k) = X (ix2 0 (Chamfer.tile b k)) := by
  subst hoff
  show X _ = _
  exact congrArg X (funext fun d => Fin.ext (by
    match d with
    | ⟨0, _⟩ => rfl
    | ⟨1, _⟩ => show 1024 * b.val + 1 * k.val = 1024 * b.val + k.val; rw [Nat.one_mul]))

theorem colSlice_apply (i : grid0.Coords) (b : Fin 8) (hb : (i 2).val = b.val) (s1 : Vec Ideal S1x8192 .f32)
    (k : Fin 1024) : colSlice i s1 (ix2 0 k) = col0 i s1 (ix2 0 (Chamfer.tile b k)) := by
  unfold colSlice colRect
  exact ld_aux (k0_off1 i) b (off1_eq i b hb) _ _ k

end Cert.KernelIdeal.BodyValue

end
-- ==== Proof.KI.ValueStep.lean ====
/-
  One grid point of the kernel is one step of the tiled recursion, assembled: the row minima, the column minima and the
  total after the point are the step's.
-/
import proofs.«180826_j62723702391632_2_alg».proof.Proof.KI.ValueStepC

noncomputable section

namespace Cert.KernelIdeal.BodyValue

open Idealize.ShloMosaic Idealize.ShloMosaic.ValueIdx
open Cert.KernelIdeal Cert.KernelIdeal.Gen Cert.KernelIdeal.Body

/-- The tile's entry (r, k) is the squared distance between query r of the tile's rows and key k of its columns. -/
theorem tile_eq (i : grid0.Coords) (a b : Fin 8) (ha : (i 1).val = a.val) (hb : (i 2).val = b.val)
    (D : Fin 8192 → Fin 8192 → EReal) (P Q : Fin 8192 → Fin 3 → EReal)
    (hD : ∀ n m, D n m = (P n 0 - Q m 0) * (P n 0 - Q m 0) + (P n 1 - Q m 1) * (P n 1 - Q m 1)
      + (P n 2 - Q m 2) * (P n 2 - Q m 2))
    (x0 : Vec Ideal S1x1024x3 .f32) (x1 : Vec Ideal S1x3x1024 .f32)
    (hx0 : ∀ (r : Fin 1024) (d : Fin 3), x0 (ix3 0 r d) = P (Chamfer.tile a r) d)
    (hx1 : ∀ (d : Fin 3) (k : Fin 1024), x1 (ix3 0 d k) = Q (Chamfer.tile b k) d) (r k : Fin 1024) :
    k0_pay10 (F := Ideal) x0 x1 (ix2 r k) = D (Chamfer.tile a r) (Chamfer.tile b k) := by
  rw [pay10_apply, hD]
  simp only [hx0, hx1, zero_add]

/-- The row minima after the point. -/
theorem row_eq (i : grid0.Coords) (a b : Fin 8) (ha : (i 1).val = a.val) (hb : (i 2).val = b.val)
    (D : Fin 8192 → Fin 8192 → EReal) (P Q : Fin 8192 → Fin 3 → EReal)
    (hD : ∀ n m, D n m = (P n 0 - Q m 0) * (P n 0 - Q m 0) + (P n 1 - Q m 1) * (P n 1 - Q m 1)
      + (P n 2 - Q m 2) * (P n 2 - Q m 2))
    (x0 : Vec Ideal S1x1024x3 .f32) (x1 : Vec Ideal S1x3x1024 .f32)
    (hx0 : ∀ (r : Fin 1024) (d : Fin 3), x0 (ix3 0 r d) = P (Chamfer.tile a r) d)
    (hx1 : ∀ (d : Fin 3) (k : Fin 1024), x1 (ix3 0 d k) = Q (Chamfer.tile b k) d)
    (s0 : Vec Ideal S1024x1 .f32) (s1 : Vec Ideal S1x8192 .f32) (s2 : Vec Ideal S1x1 .f32) (r : Fin 1024) :
    nextRow i x0 x1 s0 (ix2 r 0) = (Chamfer.step D a b (asSt s0 s1 s2)).rowMin r := by
  rw [step_rowMin]
  unfold nextRow
  rw [pay1_eq, pay11_apply]
  have e : (Finset.univ.inf fun k : Fin 1024 => k0_pay10 (F := Ideal) x0 x1 (ix2 r k))
      = Finset.univ.inf fun k : Fin 1024 => D (Chamfer.tile a r) (Chamfer.tile b k) :=
    Finset.inf_congr rfl fun k _ => tile_eq i a b ha hb D P Q hD x0 x1 hx0 hx1 r k
  rw [e]
  refine congrArg (fun t => min t _) ?_
  by_cases hb0 : b = 0
  · rw [if_pos ((c2_iff i b hb).2 hb0), if_pos hb0, pay9_apply]
  · rw [if_neg (fun h => hb0 ((c2_iff i b hb).1 h)), if_neg hb0]
    rfl

/-- The column minima the point starts from. -/
theorem col0_apply (i : grid0.Coords) (a b : Fin 8) (ha : (i 1).val = a.val) (hb : (i 2).val = b.val)
    (s0 : Vec Ideal S1024x1 .f32) (s1 : Vec Ideal S1x8192 .f32) (s2 : Vec Ideal S1x1 .f32) (m : Fin 8192) :
    col0 i s1 (ix2 0 m) = (if a = 0 ∧ b = 0 then (fun _ => (⊤ : EReal)) else (asSt s0 s1 s2).colMin) m := by
  unfold col0
  by_cases h : a = 0 ∧ b = 0
  · rw [if_pos ((c1_iff i a b ha hb).2 h), if_pos h, pay8_apply]
  · rw [if_neg (fun h' => h ((c1_iff i a b ha hb).1 h')), if_neg h]
    rfl

/-- The folded column minima at the tile's column k. -/
theorem colIn_eq (i : grid0.Coords) (a b : Fin 8) (ha : (i 1).val = a.val) (hb : (i 2).val = b.val)
    (D : Fin 8192 → Fin 8192 → EReal) (P Q : Fin 8192 → Fin 3 → EReal)
    (hD : ∀ n m, D n m = (P n 0 - Q m 0) * (P n 0 - Q m 0) + (P n 1 - Q m 1) * (P n 1 - Q m 1)
      + (P n 2 - Q m 2) * (P n 2 - Q m 2))
    (x0 : Vec Ideal S1x1024x3 .f32) (x1 : Vec Ideal S1x3x1024 .f32)
    (hx0 : ∀ (r : Fin 1024) (d : Fin 3), x0 (ix3 0 r d) = P (Chamfer.tile a r) d)
    (hx1 : ∀ (d : Fin 3) (k : Fin 1024), x1 (ix3 0 d k) = Q (Chamfer.tile b k) d)
    (s0 : Vec Ideal S1024x1 .f32) (s1 : Vec Ideal S1x8192 .f32) (s2 : Vec Ideal S1x1 .f32) (k : Fin 1024) :
    k0_pay2 (F := Ideal) (k0_pay10 x0 x1) (colSlice i s1) (ix2 0 k)
      = (Chamfer.step D a b (asSt s0 s1 s2)).colMin (Chamfer.tile b k) := by
  have hk : (Chamfer.tile b k).val / 1024 = b.val := by
    show (1024 * b.val + k.val) / 1024 = b.val
    have := k.isLt
    omega
  rw [step_colMin, if_pos hk, pay2_apply, colSlice_apply i b hb, col0_apply i a b ha hb s0 s1 s2]
  exact congrArg (min _) (Finset.inf_congr rfl fun r _ => tile_eq i a b ha hb D P Q hD x0 x1 hx0 hx1 r k)

/-- The column minima after the point. -/
theorem col_eq (i : grid0.Coords) (a b : Fin 8) (ha : (i 1).val = a.val) (hb : (i 2).val = b.val)
    (D : Fin 8192 → Fin 8192 → EReal) (P Q : Fin 8192 → Fin 3 → EReal)
    (hD : ∀ n m, D n m = (P n 0 - Q m 0) * (P n 0 - Q m 0) + (P n 1 - Q m 1) * (P n 1 - Q m 1)
      + (P n 2 - Q m 2) * (P n 2 - Q m 2))
    (x0 : Vec Ideal S1x1024x3 .f32) (x1 : Vec Ideal S1x3x1024 .f32)
    (hx0 : ∀ (r : Fin 1024) (d : Fin 3), x0 (ix3 0 r d) = P (Chamfer.tile a r) d)
    (hx1 : ∀ (d : Fin 3) (k : Fin 1024), x1 (ix3 0 d k) = Q (Chamfer.tile b k) d)
    (s0 : Vec Ideal S1024x1 .f32) (s1 : Vec Ideal S1x8192 .f32) (s2 : Vec Ideal S1x1 .f32) (m : Fin 8192) :
    nextCol i x0 x1 s1 (ix2 0 m) = (Chamfer.step D a b (asSt s0 s1 s2)).colMin m := by
  unfold nextCol
  rw [putCols_apply i b hb]
  by_cases h : 1024 * b.val ≤ m.val ∧ m.val < 1024 * b.val + 1024
  · rw [dif_pos h, pay3_eq]
    have hm : Chamfer.tile b ⟨m.val - 1024 * b.val, by omega⟩ = m :=
      Fin.ext (by show 1024 * b.val + (m.val - 1024 * b.val) = m.val; omega)
    exact (colIn_eq i a b ha hb D P Q hD x0 x1 hx0 hx1 s0 s1 s2 ⟨m.val - 1024 * b.val, by omega⟩).trans
      (congrArg (Chamfer.step D a b (asSt s0 s1 s2)).colMin hm)
  · have hm : ¬ m.val / 1024 = b.val := by omega
    rw [dif_neg h, step_colMin, if_neg hm, col0_apply i a b ha hb s0 s1 s2]

/-- The total after the point. -/
theorem tot_eq (i : grid0.Coords) (a b : Fin 8) (ha : (i 1).val = a.val) (hb : (i 2).val = b.val)
    (D : Fin 8192 → Fin 8192 → EReal) (P Q : Fin 8192 → Fin 3 → EReal)
    (hD : ∀ n m, D n m = (P n 0 - Q m 0) * (P n 0 - Q m 0) + (P n 1 - Q m 1) * (P n 1 - Q m 1)
      + (P n 2 - Q m 2) * (P n 2 - Q m 2))
    (x0 : Vec Ideal S1x1024x3 .f32) (x1 : Vec Ideal S1x3x1024 .f32)
    (hx0 : ∀ (r : Fin 1024) (d : Fin 3), x0 (ix3 0 r d) = P (Chamfer.tile a r) d)
    (hx1 : ∀ (d : Fin 3) (k : Fin 1024), x1 (ix3 0 d k) = Q (Chamfer.tile b k) d)
    (s0 : Vec Ideal S1024x1 .f32) (s1 : Vec Ideal S1x8192 .f32) (s2 : Vec Ideal S1x1 .f32) :
    nextTot i x0 x1 s0 s1 s2 (ix2 0 0) = (Chamfer.step D a b (asSt s0 s1 s2)).tot := by
  have h0 : tot0 i s2 (ix2 0 0) = if a = 0 ∧ b = 0 then 0 else (asSt s0 s1 s2).tot := by
    unfold tot0
    by_cases h : a = 0 ∧ b = 0
    · rw [if_pos ((c1_iff i a b ha hb).2 h), if_pos h, pay7_apply]
    · rw [if_neg (fun h' => h ((c1_iff i a b ha hb).1 h')), if_neg h]
      rfl
  have h1 : tot1 i x0 x1 s0 s2 (ix2 0 0)
      = if b = 7 then (if a = 0 ∧ b = 0 then 0 else (asSt s0 s1 s2).tot)
            + (∑ r, (Chamfer.step D a b (asSt s0 s1 s2)).rowMin r) * Chamfer.c
          else (if a = 0 ∧ b = 0 then 0 else (asSt s0 s1 s2).tot) := by
    unfold tot1
    by_cases h : b = 7
    · rw [if_pos ((c3_iff i b hb).2 h), if_pos h, pay4_apply, h0]
      exact congrArg (fun t => _ + t * Chamfer.c)
        (Finset.sum_congr rfl fun r _ => row_eq i a b ha hb D P Q hD x0 x1 hx0 hx1 s0 s1 s2 r)
    · rw [if_neg (fun h' => h ((c3_iff i b hb).1 h')), if_neg h, h0]
  rw [step_tot]
  unfold nextTot
  by_cases h : a = 7
  · rw [if_pos ((c4_iff i a ha).2 h), if_pos h, pay5_apply, h1]
    exact congrArg (fun t => _ + t * Chamfer.c)
      (Finset.sum_congr rfl fun k _ => colIn_eq i a b ha hb D P Q hD x0 x1 hx0 hx1 s0 s1 s2 k)
  · rw [if_neg (fun h' => h ((c4_iff i a ha).1 h')), if_neg h, h1]

/-- One grid point is one step of the tiled recursion. -/
theorem step_eq (i : grid0.Coords) (a b : Fin 8) (ha : (i 1).val = a.val) (hb : (i 2).val = b.val)
    (D : Fin 8192 → Fin 8192 → EReal) (P Q : Fin 8192 → Fin 3 → EReal)
    (hD : ∀ n m, D n m = (P n 0 - Q m 0) * (P n 0 - Q m 0) + (P n 1 - Q m 1) * (P n 1 - Q m 1)
      + (P n 2 - Q m 2) * (P n 2 - Q m 2))
    (x0 : Vec Ideal S1x1024x3 .f32) (x1 : Vec Ideal S1x3x1024 .f32)
    (hx0 : ∀ (r : Fin 1024) (d : Fin 3), x0 (ix3 0 r d) = P (Chamfer.tile a r) d)
    (hx1 : ∀ (d : Fin 3) (k : Fin 1024), x1 (ix3 0 d k) = Q (Chamfer.tile b k) d)
    (s0 : Vec Ideal S1024x1 .f32) (s1 : Vec Ideal S1x8192 .f32) (s2 : Vec Ideal S1x1 .f32) :
    asSt (nextRow i x0 x1 s0) (nextCol i x0 x1 s1) (nextTot i x0 x1 s0 s1 s2)
      = Chamfer.step D a b (asSt s0 s1 s2) :=
  st_ext _ _ (funext fun r => row_eq i a b ha hb D P Q hD x0 x1 hx0 hx1 s0 s1 s2 r)
    (funext fun m => col_eq i a b ha hb D P Q hD x0 x1 hx0 hx1 s0 s1 s2 m) (tot_eq i a b ha hb D P Q hD x0 x1 hx0 hx1 s0 s1 s2)

/-- The output block when the total is copied out. -/
theorem out_apply (v : Vec Ideal S1x1 .f32) : k0_pay6 (F := Ideal) v (ix3 0 0 0) = v (ix2 0 0) := pay6_apply v

end Cert.KernelIdeal.BodyValue

end
-- ==== Proof.TileMathA.lean ====
/-
  The tiled recursion's invariant: definitions of the partial minima and partial totals, and the effect of one tile.
-/
import proofs.«180826_j62723702391632_2_alg».proof.Proof.ChamferSpec
import Mathlib.Tactic.SplitIfs
import Mathlib.Order.Interval.Finset.Nat
import Mathlib.Data.Finset.Lattice.Fold

noncomputable section

namespace Chamfer

open Finset

variable (D : Fin 8192 → Fin 8192 → EReal)

/-- The minimum of query row `r` of tile row `i` over the keys of tile `j`. -/
def tinf (i j : Fin 8) (r : Fin 1024) : EReal := univ.inf fun k : Fin 1024 => D (tile i r) (tile j k)
/-- The minimum of key column `m` over the queries of tile row `i`. -/
def cinf (i : Fin 8) (m : Fin 8192) : EReal := univ.inf fun r : Fin 1024 => D (tile i r) m

/-- `tinf` with the tile index a natural number (`⊤` out of range). -/
def rowG (i : Fin 8) (r : Fin 1024) (J : ℕ) : EReal := if h : J < 8 then tinf D i ⟨J, h⟩ r else ⊤
/-- `cinf` with the tile row index a natural number (`⊤` out of range). -/
def colG (m : Fin 8192) (I : ℕ) : EReal := if h : I < 8 then cinf D ⟨I, h⟩ m else ⊤
/-- The minimum of query row `r` of tile row `i` over the first `J` tiles. -/
def rowAcc (i : Fin 8) (r : Fin 1024) (J : ℕ) : EReal := (range J).inf (rowG D i r)
/-- The minimum of key column `m` over the first `I` rows of tiles. -/
def colAcc (m : Fin 8192) (I : ℕ) : EReal := (range I).inf (colG D m)
/-- The scaled sum of the finished row minima of tile row `I`. -/
def F (I : ℕ) : EReal := if h : I < 8 then (∑ r, rowAcc D ⟨I, h⟩ r 8) * c else 0
/-- The scaled sum of the finished column minima of tile column `J`. -/
def G (J : ℕ) : EReal := if h : J < 8 then (∑ k, colAcc D (tile ⟨J, h⟩ k) 8) * c else 0
/-- The total after tile `(I, J)`. -/
def totAcc (I J : ℕ) : EReal :=
  ∑ a ∈ range (if J = 7 then I + 1 else I), F D a + (if I = 7 then ∑ b ∈ range (J + 1), G D b else 0)

/-- The state after tile `(i, j)`. -/
structure Inv (i j : Fin 8) (s : St) : Prop where
  row : ∀ r, s.rowMin r = rowAcc D i r (j.val + 1)
  col : ∀ m, s.colMin m = colAcc D m (if m.val / 1024 ≤ j.val then i.val + 1 else i.val)
  tot : s.tot = totAcc D i.val j.val

theorem rowAcc_zero (i : Fin 8) (r : Fin 1024) : rowAcc D i r 0 = ⊤ := by simp [rowAcc]
theorem colAcc_zero (m : Fin 8192) : colAcc D m 0 = ⊤ := by simp [colAcc]

theorem rowAcc_succ (i : Fin 8) (r : Fin 1024) (j : Fin 8) :
    rowAcc D i r (j.val + 1) = min (rowAcc D i r j.val) (tinf D i j r) := by
  unfold rowAcc
  rw [range_add_one, inf_insert, inf_comm]
  simp [rowG, j.isLt]

theorem colAcc_succ (m : Fin 8192) (i : Fin 8) :
    colAcc D m (i.val + 1) = min (colAcc D m i.val) (cinf D i m) := by
  unfold colAcc
  rw [range_add_one, inf_insert, inf_comm]
  simp [colG, i.isLt]

theorem eq7 (j : Fin 8) : j = 7 ↔ j.val = 7 := by rw [Fin.ext_iff]; rfl
theorem eq0 (j : Fin 8) : j = 0 ↔ j.val = 0 := by rw [Fin.ext_iff]; rfl

theorem tile_div (j : Fin 8) (k : Fin 1024) : (tile j k).val / 1024 = j.val := by
  simp only [tile]; omega

theorem step_row (i j : Fin 8) (s : St) (r : Fin 1024) :
    (step D i j s).rowMin r = min (if j = 0 then ⊤ else s.rowMin r) (tinf D i j r) := by
  simp only [step, tinf]; split_ifs <;> rfl

theorem step_col (i j : Fin 8) (s : St) (m : Fin 8192) :
    (step D i j s).colMin m =
      if m.val / 1024 = j.val then min (if i = 0 ∧ j = 0 then ⊤ else s.colMin m) (cinf D i m)
      else (if i = 0 ∧ j = 0 then ⊤ else s.colMin m) := by
  simp only [step, cinf]; split_ifs <;> rfl

theorem step_tot (i j : Fin 8) (s : St) :
    (step D i j s).tot =
      (if i = 7 then
        (if j = 7 then (if i = 0 ∧ j = 0 then 0 else s.tot) + (∑ r, (step D i j s).rowMin r) * c
          else (if i = 0 ∧ j = 0 then 0 else s.tot)) + (∑ k : Fin 1024, (step D i j s).colMin (tile j k)) * c
       else
        (if j = 7 then (if i = 0 ∧ j = 0 then 0 else s.tot) + (∑ r, (step D i j s).rowMin r) * c
          else (if i = 0 ∧ j = 0 then 0 else s.tot))) := by
  simp only [step]

end Chamfer

end
-- ==== Proof.TileMathB.lean ====
/-
  One tile's update carries the invariant from each tile to the next, so the invariant holds along the whole walk.
-/
import proofs.«180826_j62723702391632_2_alg».proof.Proof.TileMathA
import Mathlib.Tactic.Abel
import Mathlib.Algebra.BigOperators.Group.Finset.Basic

noncomputable section

namespace Chamfer

open Finset

variable (D : Fin 8192 → Fin 8192 → EReal)

theorem F_eq (i : Fin 8) : F D i.val = (∑ r, rowAcc D i r 8) * c := by simp [F, i.isLt]
theorem G_eq (j : Fin 8) : G D j.val = (∑ k, colAcc D (tile j k) 8) * c := by simp [G, j.isLt]

/-- The total after moving one tile to the right inside a row of tiles. -/
theorem tot_same (I J0 : ℕ) (x y : EReal) (hx : J0 + 1 = 7 → x = F D I) (hy : I = 7 → y = G D (J0 + 1))
    (hJ : J0 + 1 < 8) :
    (if I = 7 then (if J0 + 1 = 7 then totAcc D I J0 + x else totAcc D I J0) + y
      else (if J0 + 1 = 7 then totAcc D I J0 + x else totAcc D I J0)) = totAcc D I (J0 + 1) := by
  have hJ0 : J0 ≠ 7 := by omega
  unfold totAcc
  simp only [if_neg hJ0]
  by_cases hI : I = 7
  · by_cases hJ7 : J0 + 1 = 7
    · rw [if_pos hI, if_pos hJ7, if_pos hI, if_pos hJ7, if_pos hI, hx hJ7, hy hI, sum_range_succ (F D),
        sum_range_succ (G D) (J0 + 1)]
      abel
    · rw [if_pos hI, if_neg hJ7, if_pos hI, if_neg hJ7, if_pos hI, hy hI, sum_range_succ (G D) (J0 + 1)]
      abel
  · by_cases hJ7 : J0 + 1 = 7
    · rw [if_neg hI, if_pos hJ7, if_neg hI, if_pos hJ7, if_neg hI, hx hJ7, sum_range_succ (F D)]
      abel
    · rw [if_neg hI, if_neg hJ7, if_neg hI, if_neg hJ7, if_neg hI]

/-- The total after moving to the first tile of the next row of tiles. -/
theorem tot_new (I0 : ℕ) (x y : EReal) (hy : I0 + 1 = 7 → y = G D 0) (h : I0 + 1 < 8) :
    (if I0 + 1 = 7 then (if (0 : ℕ) = 7 then totAcc D I0 7 + x else totAcc D I0 7) + y
      else (if (0 : ℕ) = 7 then totAcc D I0 7 + x else totAcc D I0 7)) = totAcc D (I0 + 1) 0 := by
  have hI0 : I0 ≠ 7 := by omega
  have h07 : ¬ ((0 : ℕ) = 7) := by omega
  unfold totAcc
  simp only [if_neg hI0, if_neg h07, if_true]
  by_cases hI : I0 + 1 = 7
  · rw [if_pos hI, if_pos hI, hy hI]; simp
  · rw [if_neg hI, if_neg hI]

/-- The total after the first tile. -/
theorem tot_base (x y : EReal) :
    (if (0 : ℕ) = 7 then (if (0 : ℕ) = 7 then (0 : EReal) + x else 0) + y
      else (if (0 : ℕ) = 7 then (0 : EReal) + x else 0)) = totAcc D 0 0 := by
  have h07 : ¬ ((0 : ℕ) = 7) := by omega
  unfold totAcc
  simp only [if_neg h07]
  simp

/-- The first tile establishes the invariant from any starting contents. -/
theorem inv_base (i j : Fin 8) (hi : i.val = 0) (hj : j.val = 0) (s : St) : Inv D i j (step D i j s) := by
  have hi' : i = 0 := (eq0 i).2 hi
  have hj' : j = 0 := (eq0 j).2 hj
  have hrow : ∀ r, (step D i j s).rowMin r = rowAcc D i r (j.val + 1) := by
    intro r
    rw [step_row, if_pos hj', rowAcc_succ D i r j, hj, rowAcc_zero]
  have hcol : ∀ m : Fin 8192, (step D i j s).colMin m =
      colAcc D m (if m.val / 1024 ≤ j.val then i.val + 1 else i.val) := by
    intro m
    rw [step_col, if_pos (show i = 0 ∧ j = 0 from ⟨hi', hj'⟩)]
    by_cases hm : m.val / 1024 = j.val
    · rw [if_pos hm, if_pos (by omega : m.val / 1024 ≤ j.val), colAcc_succ D m i, hi, colAcc_zero]
    · rw [if_neg hm, if_neg (by omega : ¬ m.val / 1024 ≤ j.val), hi, colAcc_zero]
  refine ⟨hrow, hcol, ?_⟩
  rw [step_tot]
  simp only [if_pos (show i = 0 ∧ j = 0 from ⟨hi', hj'⟩), eq7, hi, hj]
  exact tot_base D _ _

/-- Moving one tile to the right inside a row of tiles keeps the invariant. -/
theorem inv_same (i j0 j : Fin 8) (h : j0.val + 1 = j.val) (s : St) (hs : Inv D i j0 s) :
    Inv D i j (step D i j s) := by
  have hj0 : j ≠ 0 := by rw [Ne, eq0]; omega
  have hij : ¬ (i = 0 ∧ j = 0) := fun hh => hj0 hh.2
  have hrow : ∀ r, (step D i j s).rowMin r = rowAcc D i r (j.val + 1) := by
    intro r
    rw [step_row, if_neg hj0, hs.row r, rowAcc_succ D i r j, h]
  have hcol : ∀ m : Fin 8192, (step D i j s).colMin m =
      colAcc D m (if m.val / 1024 ≤ j.val then i.val + 1 else i.val) := by
    intro m
    rw [step_col, if_neg hij, hs.col m]
    by_cases hm : m.val / 1024 = j.val
    · rw [if_pos hm, if_neg (by omega : ¬ m.val / 1024 ≤ j0.val), if_pos (by omega : m.val / 1024 ≤ j.val),
        colAcc_succ D m i]
    · rw [if_neg hm]
      have hiff : (m.val / 1024 ≤ j0.val) ↔ (m.val / 1024 ≤ j.val) := by omega
      simp only [hiff]
  refine ⟨hrow, hcol, ?_⟩
  rw [step_tot]
  simp only [if_neg hij, hs.tot, eq7]
  have key := tot_same D i.val j0.val ((∑ r, (step D i j s).rowMin r) * c)
    ((∑ k : Fin 1024, (step D i j s).colMin (tile j k)) * c) ?_ ?_ (by omega)
  · rw [h] at key; exact key
  · intro h7
    rw [F_eq]; congr 1; refine Finset.sum_congr rfl fun r _ => ?_
    rw [hrow r]; congr 1; omega
  · intro h7
    rw [h, G_eq]; congr 1; refine Finset.sum_congr rfl fun k _ => ?_
    rw [hcol (tile j k), tile_div, if_pos le_rfl]; congr 1; omega

/-- Moving to the first tile of the next row of tiles keeps the invariant. -/
theorem inv_new (i0 i j0 j : Fin 8) (hi : i0.val + 1 = i.val) (hj0 : j0.val = 7) (hj : j.val = 0) (s : St)
    (hs : Inv D i0 j0 s) : Inv D i j (step D i j s) := by
  have hi0 : i ≠ 0 := by rw [Ne, eq0]; omega
  have hij : ¬ (i = 0 ∧ j = 0) := fun hh => hi0 hh.1
  have hj' : j = 0 := (eq0 j).2 hj
  have hrow : ∀ r, (step D i j s).rowMin r = rowAcc D i r (j.val + 1) := by
    intro r
    rw [step_row, if_pos hj', rowAcc_succ D i r j, hj, rowAcc_zero]
  have hcol : ∀ m : Fin 8192, (step D i j s).colMin m =
      colAcc D m (if m.val / 1024 ≤ j.val then i.val + 1 else i.val) := by
    intro m
    have hm7 : m.val / 1024 ≤ j0.val := by have := m.isLt; omega
    rw [step_col, if_neg hij, hs.col m, if_pos hm7]
    by_cases hm : m.val / 1024 = j.val
    · rw [if_pos hm, if_pos (by omega : m.val / 1024 ≤ j.val), colAcc_succ D m i, hi]
    · rw [if_neg hm, if_neg (by omega : ¬ m.val / 1024 ≤ j.val), hi]
  refine ⟨hrow, hcol, ?_⟩
  rw [step_tot]
  simp only [if_neg hij, hs.tot, eq7]
  have key := tot_new D i0.val ((∑ r, (step D i j s).rowMin r) * c)
    ((∑ k : Fin 1024, (step D i j s).colMin (tile j k)) * c) ?_ (by omega)
  · rw [hi] at key; rw [hj, hj0]; exact key
  · intro h7
    rw [← hj, G_eq]; congr 1; refine Finset.sum_congr rfl fun k _ => ?_
    rw [hcol (tile j k), tile_div, if_pos le_rfl]; congr 1; omega

/-- The invariant holds after every tile of the walk. -/
theorem inv_run (init : St) : ∀ k : ℕ, k < 64 → Inv D (tileRow k) (tileCol k) (run D init k)
  | 0, _ => inv_base D (tileRow 0) (tileCol 0) rfl rfl init
  | k + 1, hk => by
    have ih := inv_run init k (by omega)
    show Inv D (tileRow (k + 1)) (tileCol (k + 1)) (step D (tileRow (k + 1)) (tileCol (k + 1)) (run D init k))
    by_cases h7 : k % 8 = 7
    · exact inv_new D (tileRow k) (tileRow (k + 1)) (tileCol k) (tileCol (k + 1))
        (by simp only [tileRow]; omega) (by simp only [tileCol]; omega) (by simp only [tileCol]; omega) _ ih
    · have e : tileRow (k + 1) = tileRow k := by
        apply Fin.ext; simp only [tileRow]; omega
      rw [e]
      exact inv_same D (tileRow k) (tileCol k) (tileCol (k + 1)) (by simp only [tileCol]; omega) _ ih

end Chamfer

end
-- ==== Proof.TileMath.lean ====
/-
  The walk over the 64 tiles leaves the total at the Chamfer distance: the finished partial minima are the full minima,
  the sums over tiles reassemble into the sums over all queries and over all keys, and the scaling distributes over
  sums of nonnegative terms.
-/
import proofs.«180826_j62723702391632_2_alg».proof.Proof.TileMathB
import Mathlib.Tactic.NormNum
import Mathlib.Data.Fintype.BigOperators
import Mathlib.Algebra.Order.BigOperators.Group.Finset

noncomputable section

namespace Chamfer

open Finset

variable (D : Fin 8192 → Fin 8192 → EReal)

/-- A square is nonnegative in the extended reals. -/
theorem mul_self_nonneg' (x : EReal) : 0 ≤ x * x := by
  induction x using EReal.rec with
  | bot => simp
  | top => simp
  | coe r => exact_mod_cast mul_self_nonneg r

theorem Dist_nonneg (p q : Fin 4 → Fin 8192 → Fin 3 → EReal) (b : Fin 4) (n m : Fin 8192) :
    0 ≤ Dist p q b n m := by
  unfold Dist
  exact add_nonneg (add_nonneg (mul_self_nonneg' _) (mul_self_nonneg' _)) (mul_self_nonneg' _)

/-- Every index is an entry of a tile. -/
theorem tile_surj (m : Fin 8192) : ∃ (j : Fin 8) (k : Fin 1024), tile j k = m := by
  refine ⟨⟨m.val / 1024, by have := m.isLt; omega⟩, ⟨m.val % 1024, Nat.mod_lt _ (by norm_num)⟩, ?_⟩
  apply Fin.ext; simp only [tile]; omega

/-- The tiling as a bijection. -/
def tileEquiv : Fin 8 × Fin 1024 ≃ Fin 8192 where
  toFun p := tile p.1 p.2
  invFun m := (⟨m.val / 1024, by have := m.isLt; omega⟩, ⟨m.val % 1024, Nat.mod_lt _ (by norm_num)⟩)
  left_inv := by
    rintro ⟨i, r⟩
    have hi := i.isLt
    have hr := r.isLt
    apply Prod.ext
    · apply Fin.ext; simp only [tile]; omega
    · apply Fin.ext; simp only [tile]; omega
  right_inv := by
    intro m
    apply Fin.ext; simp only [tile]; omega

/-- A sum over all indices is the sum over tiles of the sums inside each tile. -/
theorem sum_tile (f : Fin 8192 → EReal) : ∑ m, f m = ∑ j : Fin 8, ∑ k : Fin 1024, f (tile j k) := by
  rw [← Equiv.sum_comp tileEquiv f, Fintype.sum_prod_type]
  rfl

/-- Scaling distributes over a finite sum of nonnegative extended reals. -/
theorem sum_mul_nonneg {ι : Type} (s : Finset ι) (f : ι → EReal) (hf : ∀ a ∈ s, 0 ≤ f a) (x : EReal) :
    (∑ a ∈ s, f a) * x = ∑ a ∈ s, f a * x := by
  classical
  induction s using Finset.induction_on with
  | empty => simp
  | insert a s ha ih =>
    rw [sum_insert ha, sum_insert ha,
      EReal.right_distrib_of_nonneg (hf a (mem_insert_self a s))
        (sum_nonneg fun b hb => hf b (mem_insert_of_mem hb)),
      ih fun b hb => hf b (mem_insert_of_mem hb)]

theorem rowG_eq (i : Fin 8) (r : Fin 1024) (j : Fin 8) : rowG D i r j.val = tinf D i j r := by
  simp [rowG, j.isLt]
theorem colG_eq (m : Fin 8192) (i : Fin 8) : colG D m i.val = cinf D i m := by
  simp [colG, i.isLt]

/-- After the eight tiles of a row of tiles the row minimum is the minimum over all keys. -/
theorem rowAcc_full (i : Fin 8) (r : Fin 1024) : rowAcc D i r 8 = univ.inf fun m => D (tile i r) m := by
  apply le_antisymm
  · apply Finset.le_inf
    intro m _
    obtain ⟨j, k, rfl⟩ := tile_surj m
    calc rowAcc D i r 8 ≤ rowG D i r j.val := Finset.inf_le (mem_range.2 j.isLt)
      _ = tinf D i j r := rowG_eq D i r j
      _ ≤ D (tile i r) (tile j k) := Finset.inf_le (f := fun k => D (tile i r) (tile j k)) (mem_univ k)
  · apply Finset.le_inf
    intro J hJ
    rw [mem_range] at hJ
    simp only [rowG, dif_pos hJ, tinf]
    apply Finset.le_inf
    intro k _
    exact Finset.inf_le (f := fun m => D (tile i r) m) (mem_univ (tile ⟨J, hJ⟩ k))

/-- After the eight rows of tiles the column minimum is the minimum over all queries. -/
theorem colAcc_full (m : Fin 8192) : colAcc D m 8 = univ.inf fun n => D n m := by
  apply le_antisymm
  · apply Finset.le_inf
    intro n _
    obtain ⟨i, r, rfl⟩ := tile_surj n
    calc colAcc D m 8 ≤ colG D m i.val := Finset.inf_le (mem_range.2 i.isLt)
      _ = cinf D i m := colG_eq D m i
      _ ≤ D (tile i r) m := Finset.inf_le (f := fun r => D (tile i r) m) (mem_univ r)
  · apply Finset.le_inf
    intro I hI
    rw [mem_range] at hI
    simp only [colG, dif_pos hI, cinf]
    apply Finset.le_inf
    intro r _
    exact Finset.inf_le (f := fun n => D n m) (mem_univ (tile ⟨I, hI⟩ r))

/-- The scaled tile sums of a nonnegative function add up to its scaled total. -/
theorem sum_tiles_scaled (f : Fin 8192 → EReal) (hf : ∀ m, 0 ≤ f m) :
    ∑ j : Fin 8, (∑ k : Fin 1024, f (tile j k)) * c = (∑ m, f m) * c := by
  rw [sum_tile f, sum_mul_nonneg univ _ (fun j _ => sum_nonneg fun k _ => hf (tile j k)) c]

theorem sumF (hD : ∀ n m, 0 ≤ D n m) : ∑ a ∈ range 8, F D a = fwd D * c := by
  rw [← Fin.sum_univ_eq_sum_range (F D) 8]
  simp only [F_eq, rowAcc_full]
  exact sum_tiles_scaled (fun n => univ.inf fun m => D n m) (fun n => Finset.le_inf fun m _ => hD n m)

theorem sumG (hD : ∀ n m, 0 ≤ D n m) : ∑ b ∈ range 8, G D b = bwd D * c := by
  rw [← Fin.sum_univ_eq_sum_range (G D) 8]
  simp only [G_eq, colAcc_full]
  exact sum_tiles_scaled (fun m => univ.inf fun n => D n m) (fun m => Finset.le_inf fun n _ => hD n m)

/-- Walking the 64 tiles in order from any starting contents leaves the total at the Chamfer distance. -/
theorem run_tot (hD : ∀ n m, 0 ≤ D n m) (init : St) : (run D init 63).tot = chamfer D := by
  have h := (inv_run D init 63 (by norm_num)).tot
  have e1 : (tileRow 63).val = 7 := rfl
  have e2 : (tileCol 63).val = 7 := rfl
  rw [h, e1, e2]
  unfold totAcc chamfer
  rw [if_pos rfl, if_pos rfl, sumF D hD, sumG D hD]

end Chamfer

end
-- ==== Proof.TileWalk.lean ====
/-
  Several batches walked in one sequence of positions: each batch's first tile resets the running quantities, so the
  64 positions of batch `b` are a walk over its own matrix from some starting contents, and the total at its last
  position is that batch's Chamfer distance.
-/
import proofs.«180826_j62723702391632_2_alg».proof.Proof.TileMath

noncomputable section

namespace Chamfer

open Finset

/-- The 64 positions of batch `b` are the tile walk over `D b` from some starting contents. -/
theorem walk_run (D : ℕ → Fin 8192 → Fin 8192 → EReal) (S : ℕ → St) (init : St)
    (h0 : S 0 = step (D 0) 0 0 init)
    (hs : ∀ t, S (t + 1) = step (D ((t + 1) / 64)) (tileRow (t + 1)) (tileCol (t + 1)) (S t)) (b : ℕ) :
    ∃ p : St, ∀ k, k < 64 → S (64 * b + k) = run (D b) p k := by
  have hstart : ∃ p : St, S (64 * b) = step (D b) 0 0 p := by
    cases b with
    | zero => exact ⟨init, by rw [Nat.mul_zero]; exact h0⟩
    | succ b' =>
      refine ⟨S (64 * b' + 63), ?_⟩
      have e : 64 * (b' + 1) = (64 * b' + 63) + 1 := by omega
      have e1 : (64 * b' + 63 + 1) / 64 = b' + 1 := by omega
      have e2 : tileRow (64 * b' + 63 + 1) = 0 := by
        apply Fin.ext; show (64 * b' + 63 + 1) / 8 % 8 = 0; omega
      have e3 : tileCol (64 * b' + 63 + 1) = 0 := by
        apply Fin.ext; show (64 * b' + 63 + 1) % 8 = 0; omega
      rw [e, hs, e1, e2, e3]
  obtain ⟨p, hp⟩ := hstart
  refine ⟨p, ?_⟩
  intro k
  induction k with
  | zero =>
    intro _
    show S (64 * b + 0) = step (D b) 0 0 p
    rw [Nat.add_zero]; exact hp
  | succ k ih =>
    intro hk
    have e : 64 * b + (k + 1) = (64 * b + k) + 1 := by omega
    have e1 : (64 * b + k + 1) / 64 = b := by omega
    have e2 : tileRow (64 * b + k + 1) = tileRow (k + 1) := by
      apply Fin.ext; simp only [tileRow]; omega
    have e3 : tileCol (64 * b + k + 1) = tileCol (k + 1) := by
      apply Fin.ext; simp only [tileCol]; omega
    rw [e, hs, ih (by omega), e1, e2, e3]
    rfl

/-- At the last position of batch `b` the total is the Chamfer distance of that batch's matrix. -/
theorem walk_tot (D : ℕ → Fin 8192 → Fin 8192 → EReal) (hD : ∀ b n m, 0 ≤ D b n m) (S : ℕ → St) (init : St)
    (h0 : S 0 = step (D 0) 0 0 init)
    (hs : ∀ t, S (t + 1) = step (D ((t + 1) / 64)) (tileRow (t + 1)) (tileCol (t + 1)) (S t)) (b : ℕ) :
    (S (64 * b + 63)).tot = chamfer (D b) := by
  obtain ⟨p, hp⟩ := walk_run D S init h0 hs b
  rw [hp 63 (by norm_num)]
  exact run_tot (D b) (hD b) p

end Chamfer

end
-- ==== Proof.KI.Walk.lean ====
/-
  The kernel's walk over its grid, as mathematics: the three scratch buffers after position n of the grid are the running
  quantities of the tiled recursion after n steps, batch after batch; so at the last position of batch b the total is
  the Chamfer distance of that batch.
-/
import proofs.«180826_j62723702391632_2_alg».proof.Proof.KI.Frame
import proofs.«180826_j62723702391632_2_alg».proof.Proof.KI.Blocks
import proofs.«180826_j62723702391632_2_alg».proof.Proof.KI.ValueStep
import proofs.«180826_j62723702391632_2_alg».proof.Proof.TileWalk

set_option maxRecDepth 16384

noncomputable section

namespace Cert.KernelIdeal.BodyValue

open Idealize.ShloMosaic Idealize.ShloMosaic.TcCoe Idealize.SL.Sem Idealize.ShloMosaic.ValueIdx
open Cert.KernelIdeal Cert.KernelIdeal.Gen Cert.KernelIdeal.Body

variable (m : (ℓ : Loc nD τ sig) → Buf (Elt Ideal) ℓ)

/-- The two argument arrays as coordinates: batch, point, axis. -/
def argP (c : Dev nD) : Fin 4 → Fin 8192 → Fin 3 → EReal :=
  fun b n d => m ((c : Thread nD τ).loc main_arg0) (ix3 b n d)
def argQ (c : Dev nD) : Fin 4 → Fin 8192 → Fin 3 → EReal :=
  fun b n d => m ((c : Thread nD τ).loc main_arg1) (ix3 b n d)

/-- The grid coordinates in closed form: row of tiles and column of tiles of position t. -/
theorem coords_eq : ∀ t : Fin cfg0.N, (grid0.coords t 1).val = t.val / 8 % 8 ∧ (grid0.coords t 2).val = t.val % 8 :=
  (by decide +kernel : ∀ t : Fin grid0.N, (grid0.coords t 1).val = t.val / 8 % 8 ∧ (grid0.coords t 2).val = t.val % 8)

/-- The matrix of squared distances of batch b (taken modulo 4, so that every number names a batch). -/
def batchD (c : Dev nD) (b : ℕ) : Fin 8192 → Fin 8192 → EReal :=
  Chamfer.Dist (argP m c) (argQ m c) ⟨b % 4, Nat.mod_lt _ (by norm_num)⟩

/-- The walk of the tiled recursion over all positions, batch after batch. -/
def walkS (c : Dev nD) : ℕ → Chamfer.St
  | 0 => Chamfer.step (batchD m c 0) 0 0 (asSt (k0_pay9 (F := Ideal)) (k0_pay8 (F := Ideal)) (k0_pay7 (F := Ideal)))
  | t + 1 => Chamfer.step (batchD m c ((t + 1) / 64)) (Chamfer.tileRow (t + 1)) (Chamfer.tileCol (t + 1)) (walkS c t)

theorem walkS_zero (c : Dev nD) : walkS m c 0
    = Chamfer.step (batchD m c 0) 0 0 (asSt (k0_pay9 (F := Ideal)) (k0_pay8 (F := Ideal)) (k0_pay7 (F := Ideal))) := rfl
theorem walkS_succ (c : Dev nD) (t : ℕ) : walkS m c (t + 1)
    = Chamfer.step (batchD m c ((t + 1) / 64)) (Chamfer.tileRow (t + 1)) (Chamfer.tileCol (t + 1)) (walkS m c t) := rfl

/-- One position's update of the scratch buffers is one step of the recursion on that position's batch and tile. -/
theorem stepScr_eq (c : Dev nD) (t : Fin cfg0.N) (s : Scr Ideal) :
    asSt (stepScr m c t s).1 (stepScr m c t s).2.1 (stepScr m c t s).2.2
      = Chamfer.step (batchD m c (t.val / 64)) (Chamfer.tileRow t.val) (Chamfer.tileCol t.val) (asSt s.1 s.2.1 s.2.2) := by
  have hb4 : (⟨t.val / 64 % 4, Nat.mod_lt _ (by norm_num)⟩ : Fin 4) = ⟨t.val / 64, batch_lt t⟩ :=
    Fin.ext (Nat.mod_eq_of_lt (batch_lt t))
  unfold stepScr
  exact step_eq (grid0.coords t) (Chamfer.tileRow t.val) (Chamfer.tileCol t.val) (coords_eq t).1 (coords_eq t).2
    (batchD m c (t.val / 64)) (argP m c ⟨t.val / 64, batch_lt t⟩) (argQ m c ⟨t.val / 64, batch_lt t⟩)
    (fun n k => by unfold batchD; rw [hb4]; rfl)
    (iblk m c 0 t) (iblk m c 1 t) (iblk0_apply m c t) (iblk1_apply m c t) s.1 s.2.1 s.2.2

/-- The scratch buffers after position n are the walk after n steps. -/
theorem scr_walk (c : Dev nD) (n : ℕ) : ∀ h : n < cfg0.N,
    asSt (scrAt m c n h).1 (scrAt m c n h).2.1 (scrAt m c n h).2.2 = walkS m c n := by
  induction n with
  | zero =>
    intro h
    have e : scrAt m c 0 h = stepScr m c ⟨0, h⟩ (k0_pay9 (F := Ideal), k0_pay8 (F := Ideal), k0_pay7 (F := Ideal)) :=
      scrAt_zero m c ⟨0, h⟩ rfl (k0_pay9 (F := Ideal), k0_pay8 (F := Ideal), k0_pay7 (F := Ideal))
    rw [e, stepScr_eq, walkS_zero]
    have r0 : Chamfer.tileRow 0 = (0 : Fin 8) := Fin.ext rfl
    have c0 : Chamfer.tileCol 0 = (0 : Fin 8) := Fin.ext rfl
    show Chamfer.step (batchD m c (0 / 64)) (Chamfer.tileRow 0) (Chamfer.tileCol 0)
      (asSt (k0_pay9 (F := Ideal)) (k0_pay8 (F := Ideal)) (k0_pay7 (F := Ideal))) = _
    rw [r0, c0, Nat.zero_div]
  | succ n ih =>
    intro h
    have e : scrAt m c (n + 1) h = stepScr m c ⟨n + 1, h⟩ (scrAt m c n (Nat.lt_of_succ_lt h)) :=
      scrAt_pos m c ⟨n + 1, h⟩ (Nat.succ_ne_zero n)
    rw [e, stepScr_eq, ih (Nat.lt_of_succ_lt h), walkS_succ]

/-- At the last position of batch b the total is the batch's Chamfer distance. -/
theorem tot_last (c : Dev nD) (b : Fin 4) (h : 64 * b.val + 63 < cfg0.N) :
    (scrAt m c (64 * b.val + 63) h).2.2 (ix2 0 0) = Chamfer.chamfer (Chamfer.Dist (argP m c) (argQ m c) b) := by
  have hw := Chamfer.walk_tot (batchD m c) (fun b' n k => Chamfer.Dist_nonneg _ _ _ n k) (walkS m c)
    (asSt (k0_pay9 (F := Ideal)) (k0_pay8 (F := Ideal)) (k0_pay7 (F := Ideal))) (walkS_zero m c) (walkS_succ m c) b.val
  have hs := congrArg Chamfer.St.tot (scr_walk m c (64 * b.val + 63) h)
  have hb : batchD m c b.val = Chamfer.Dist (argP m c) (argQ m c) b := by
    unfold batchD
    rw [show (⟨b.val % 4, Nat.mod_lt _ (by norm_num)⟩ : Fin 4) = b from Fin.ext (Nat.mod_eq_of_lt b.isLt)]
  exact hs.trans (hw.trans (congrArg Chamfer.chamfer hb))

end Cert.KernelIdeal.BodyValue

end
-- ==== Proof.KI.Value.lean ====
/-
  The idealized kernel's run, read: its result is the mean over the four batches of the Chamfer distance of the two
  argument arrays.

  Element `(b, 0, 0)` of the kernel's result array is the running total after the last tile of batch `b`, which the
  walk over the tiles shows to be the Chamfer distance of batch `b`; the host lines after the region average the four.
-/
import proofs.«180826_j62723702391632_2_alg».proof.Proof.KI.Final
import proofs.«180826_j62723702391632_2_alg».proof.Proof.KI.Walk
import Idealize.ShloMosaic.Lib.ValueLayout

set_option maxRecDepth 16384

noncomputable section

namespace Cert.KernelIdeal.BodyValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- Element `(b, 0, 0)` of the result array is batch `b`'s Chamfer distance. -/
theorem G_apply (c : Dev nD) (b : Fin 4) :
    G m c (ix3 b 0 0) = Chamfer.chamfer (Chamfer.Dist (argP m c) (argQ m c) b) := by
  show k0_pay6 (F := Ideal) (scrAt m c (64 * b.val + 63) (lastPt_lt b)).2.2 (ix3 0 0 0) = _
  rw [out_apply, tot_last]

/-- The result array reshaped to a 4-vector: the four batches' Chamfer distances. -/
theorem vec_eq (c : Dev nD) :
    shapeCast S4 (G m c) Facts₀.shapeCasts_S4x1x1_S4 = fun i => Chamfer.chamfer (Chamfer.Dist (argP m c) (argQ m c) (i 0)) := by
  funext i
  obtain ⟨b, rfl⟩ : ∃ b : Fin 4, i = ix1 b := ⟨i 0, eq_ix1 i⟩
  refine (shapeCast_apply (G m c) Facts₀.shapeCasts_S4x1x1_S4 (ix1 b) (ix3 b 0 0) ?_).trans (G_apply m c b)
  show (S4x1x1.rowMajor (ix3 b 0 0)).val = (S4.rowMajor (ix1 b)).val
  rw [Shape.rowMajor_val_three, Shape.rowMajor_val_one]
  show (b.val * 1 + 0) * 1 + 0 = b.val
  omega

/-- The run: the result at the mean of the four Chamfer distances, the two arguments unchanged. -/
theorem run : θ_run defs (onTc (τ := τ) (main (F := Ideal))) ⟨m, fun _ => 0, ρ⟩ (fun r => ∀ c : Dev nD,
      r.2.mem ((c.tc : Thread nD τ).loc main_v4) = tailMean (fun i => Chamfer.chamfer (Chamfer.Dist (argP m c) (argQ m c) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans ((tail_eq m c).trans (congrArg tailMean (vec_eq m c))),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.BodyValue

end
-- ==== Proof.RefSideA.lean ====
/-
  Real-number facts behind the reference's pairwise squared distance: for real coordinates the expansion
  |p|² + |q|² − 2 p·q is the sum of the squared coordinate differences, which is nonnegative, so clamping it at zero
  changes nothing; and the float words the reference spells, as extended reals.
-/
import Idealize.ShloMosaic.PureOps.Ideal
import Idealize.ShloMosaic.PureOps.Ideal.Laws
import proofs.«180826_j62723702391632_2_alg».proof.Proof.ChamferSpec

noncomputable section

namespace Cert.ReferenceIdeal.RefValue

open Idealize.ShloMosaic

/-- The word of `2.0` denotes the real 2. -/
theorem ofBits_two : Ideal.ofBits .f32 0x40000000#32 = ((2 : ℝ) : EReal) := by
  simp [Ideal.ofBits, Ideal.ieee, -EReal.coe_mul]; norm_num

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `+inf` denotes the top element. -/
theorem ofBits_inf : Ideal.ofBits .f32 0x7F800000#32 = (⊤ : EReal) := by
  simp [Ideal.ofBits, Ideal.ieee]

/-- Dividing by 8192 is multiplying by 1/8192, on every extended real. -/
theorem div_8192 (x : EReal) : Ideal.div x (Ideal.ofBits .f32 0x46000000#32) = x * Chamfer.c := by
  rw [ofBits_8192, Ideal.div_coe (by norm_num : (8192 : ℝ) ≠ 0)]; rfl

/-- For real coordinates, the clamped expansion |a|² + |b|² − 2 a·b is the sum of squared differences. -/
theorem dist_real (a b : Fin 3 → ℝ) :
    max (((0 : EReal) + ∑ k : Fin 3, ((a k : ℝ) : EReal) * ((a k : ℝ) : EReal))
          + ((0 : EReal) + ∑ k : Fin 3, ((b k : ℝ) : EReal) * ((b k : ℝ) : EReal))
          - ((2 : ℝ) : EReal) * ∑ k : Fin 3, ((a k : ℝ) : EReal) * ((b k : ℝ) : EReal)) (0 : EReal)
      = (((a 0 : ℝ) : EReal) - ((b 0 : ℝ) : EReal)) * (((a 0 : ℝ) : EReal) - ((b 0 : ℝ) : EReal))
        + (((a 1 : ℝ) : EReal) - ((b 1 : ℝ) : EReal)) * (((a 1 : ℝ) : EReal) - ((b 1 : ℝ) : EReal))
        + (((a 2 : ℝ) : EReal) - ((b 2 : ℝ) : EReal)) * (((a 2 : ℝ) : EReal) - ((b 2 : ℝ) : EReal)) := by
  simp only [Fin.sum_univ_three, zero_add]
  simp only [← EReal.coe_mul, ← EReal.coe_add, ← EReal.coe_sub]
  have h : a 0 * a 0 + a 1 * a 1 + a 2 * a 2 + (b 0 * b 0 + b 1 * b 1 + b 2 * b 2)
      - 2 * (a 0 * b 0 + a 1 * b 1 + a 2 * b 2)
      = (a 0 - b 0) * (a 0 - b 0) + (a 1 - b 1) * (a 1 - b 1) + (a 2 - b 2) * (a 2 - b 2) := by ring
  rw [h]
  exact max_eq_left (EReal.coe_nonneg.mpr
    (add_nonneg (add_nonneg (mul_self_nonneg _) (mul_self_nonneg _)) (mul_self_nonneg _)))

end Cert.ReferenceIdeal.RefValue

end
-- ==== Proof.RefSideB.lean ====
/-
  The reference's pairwise stage read at an index: for real-valued arguments the clamped expansion the reference
  computes at (b, n, m) is the squared distance between query n and key m of batch b, and its two minimum reductions
  are the infima over the keys and over the queries.
-/
import proofs.«180826_j62723702391632_2_alg».proof.Proof.Gen.ReferenceIdeal.Read
import proofs.«180826_j62723702391632_2_alg».proof.Proof.RefSideA
import Idealize.ShloMosaic.Lib.ValueIdx
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- An argument array as coordinates: batch, point, axis. -/
def coords (x : (⟨S4x8192x3, .f32⟩ : BufTy).Contents (Elt Ideal)) : Fin 4 → Fin 8192 → Fin 3 → EReal :=
  fun b n d => x (ix3 b n d)

/-- The fold of `min` from the top element is the infimum. -/
theorem fold_min_top_eq_inf {ι : Type} (s : Finset ι) (f : ι → EReal) :
    s.fold (min : EReal → EReal → EReal) ⊤ f = s.inf f := by
  classical
  induction s using Finset.induction_on with
  | empty => rfl
  | insert a s ha ih => rw [Finset.fold_insert ha, Finset.inf_insert, ih]

/-- The clamped expansion at (b, n, m) is the squared distance, for real-valued arguments. -/
theorem v14_apply (x0 x1 : (⟨S4x8192x3, .f32⟩ : BufTy).Contents (Elt Ideal))
    (h0 : ∀ i, ∃ r : ℝ, x0 i = (r : EReal)) (h1 : ∀ i, ∃ r : ℝ, x1 i = (r : EReal))
    (b : Fin 4) (n m : Fin 8192) :
    val_main_v14 (F := Ideal) x0 x1 (ix3 b n m) = Chamfer.Dist (coords x0) (coords x1) b n m := by
  choose a ha using h0
  choose c hc using h1
  rw [val_main_v14_apply, val_main_v12_apply, val_main_v13_apply, val_main_cst_2_apply, val_main_v9_apply,
    val_main_v11_apply, val_main_v10_apply, val_main_cst_1_apply, val_main_v7_apply, val_main_v5_apply,
    val_main_v1_apply, val_main_v8_apply, val_main_v6_apply, val_main_v3_apply, val_main_v4_apply,
    val_main_cst_apply, val_main_cst_0_apply]
  have e1 : ∀ k : Fin 3, idx_main_v1 (idx_main_v5 (idx_main_v7 (ix3 b n m))) k = ix3 b n k := fun k =>
    funext fun d => Fin.ext (by match d with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun d => Fin.ext (by match d with | ⟨0, _⟩ => rfl | ⟨1, _⟩ => rfl | ⟨2, _⟩ => rfl)
  have e3 : ∀ k : Fin 3, lidx_main_v4 (ix3 b n m) k = ix3 b n k := fun k =>
    funext fun d => Fin.ext (by match d with | ⟨0, _⟩ => rfl | ⟨1, _⟩ => rfl | ⟨2, _⟩ => rfl)
  have e4 : ∀ k : Fin 3, ridx_main_v4 (ix3 b n m) k = ix3 b m k := fun k =>
    funext fun d => Fin.ext (by match d with | ⟨0, _⟩ => rfl | ⟨1, _⟩ => rfl | ⟨2, _⟩ => rfl)
  simp only [val_main_v0_apply, val_main_v2_apply, e1, e2, e3, e4, Ideal.maximumf_def, Ideal.subf_def,
    Ideal.addf_def, Ideal.mulf_def, Ideal.ofBits_def, Ideal.ofBits_zero_f32, ofBits_two, ha, hc]
  refine (dist_real (fun k => a (ix3 b n k)) (fun k => c (ix3 b m k))).trans ?_
  simp only [Chamfer.Dist, coords, ha, hc]

/-- The minimum over the keys: the reference's reduction over the last axis, at (b, n), is the infimum over the keys
    of the squared distances from query n. -/
theorem v15_apply (x0 x1 : (⟨S4x8192x3, .f32⟩ : BufTy).Contents (Elt Ideal))
    (h0 : ∀ i, ∃ r : ℝ, x0 i = (r : EReal)) (h1 : ∀ i, ∃ r : ℝ, x1 i = (r : EReal))
    (b : Fin 4) (n : Fin 8192) :
    val_main_v15 (F := Ideal) x0 x1 (ix2 b n)
      = Finset.univ.inf (fun m : Fin 8192 => Chamfer.Dist (coords x0) (coords x1) b n m) := by
  unfold val_main_v15
  have hr : S4x8192x8192.Reduces [2] S4x8192 := by decide
  rw [Host.reduce_eq_fold_single FloatOps.minimumf _ _ reducesTo_S4x8192x8192_S4x8192_d2 hr h_S_ (ix2 b n)]
  have hf : (val_main_v14 (F := Ideal) x0 x1 ∘ hr.lift (ix2 b n))
      = fun m : Fin 8192 => Chamfer.Dist (coords x0) (coords x1) b n m := by
    funext m
    have e : hr.lift (ix2 b n) m = ix3 b n m :=
      funext fun d => Fin.ext (by match d with | ⟨0, _⟩ => rfl | ⟨1, _⟩ => rfl | ⟨2, _⟩ => rfl)
    show val_main_v14 (F := Ideal) x0 x1 (hr.lift (ix2 b n) m) = _
    rw [e]
    exact v14_apply x0 x1 h0 h1 b n m
  rw [hf, val_main_cst_3_apply, Ideal.ofBits_def, ofBits_inf]
  exact fold_min_top_eq_inf _ _

/-- The minimum over the queries: the reference's reduction over the middle axis, at (b, m), is the infimum over the
    queries of the squared distances to key m. -/
theorem v19_apply (x0 x1 : (⟨S4x8192x3, .f32⟩ : BufTy).Contents (Elt Ideal))
    (h0 : ∀ i, ∃ r : ℝ, x0 i = (r : EReal)) (h1 : ∀ i, ∃ r : ℝ, x1 i = (r : EReal))
    (b : Fin 4) (m : Fin 8192) :
    val_main_v19 (F := Ideal) x0 x1 (ix2 b m)
      = Finset.univ.inf (fun n : Fin 8192 => Chamfer.Dist (coords x0) (coords x1) b n m) := by
  unfold val_main_v19
  have hr : S4x8192x8192.Reduces [1] S4x8192 := by decide
  rw [Host.reduce_eq_fold_single FloatOps.minimumf _ _ reducesTo_S4x8192x8192_S4x8192_d1 hr h_S_ (ix2 b m)]
  have hf : (val_main_v14 (F := Ideal) x0 x1 ∘ hr.lift (ix2 b m))
      = fun n : Fin 8192 => Chamfer.Dist (coords x0) (coords x1) b n m := by
    funext n
    have e : hr.lift (ix2 b m) n = ix3 b n m :=
      funext fun d => Fin.ext (by match d with | ⟨0, _⟩ => rfl | ⟨1, _⟩ => rfl | ⟨2, _⟩ => rfl)
    show val_main_v14 (F := Ideal) x0 x1 (hr.lift (ix2 b m) n) = _
    rw [e]
    exact v14_apply x0 x1 h0 h1 b n m
  rw [hf, val_main_cst_6_apply, Ideal.ofBits_def, ofBits_inf]
  exact fold_min_top_eq_inf _ _

end Cert.ReferenceIdeal.RefValue

end
-- ==== Proof.RefSideC.lean ====
/-
  The reference's result as the mean over the batches of the Chamfer distance: the two means (a sum divided by 8192)
  and their sum at batch b are the Chamfer distance of the batch's squared-distance matrix; the common tail (the sum of
  the four batch values divided by 4) is kept closed. Also: a precondition that every argument entry has absolute value
  below +∞ says every entry is a real.
-/
import proofs.«180826_j62723702391632_2_alg».proof.Proof.RefSideB
import proofs.«180826_j62723702391632_2_alg».proof.Proof.Gen.Pre_finite_inputs
import Idealize.ShloMosaic.Lib.ReduceAll

noncomputable section

namespace Cert.ReferenceIdeal.RefValue

open Cert.ReferenceIdeal Cert.ReferenceIdeal.Gen Cert.ReferenceIdeal.Read Idealize.ShloMosaic Idealize.ShloMosaic.ValueIdx

/-- The reference's 4-vector before the final mean: at batch b, the Chamfer distance of the batch's matrix of squared
    distances, for real-valued arguments. -/
theorem ref_vec (x0 x1 : (⟨S4x8192x3, .f32⟩ : BufTy).Contents (Elt Ideal))
    (h0 : ∀ i, ∃ r : ℝ, x0 i = (r : EReal)) (h1 : ∀ i, ∃ r : ℝ, x1 i = (r : EReal)) (b : Fin 4) :
    val_main_v23 (F := Ideal) x0 x1 (ix1 b) = Chamfer.chamfer (Chamfer.Dist (coords x0) (coords x1) b) := by
  rw [val_main_v23_apply, val_main_v18_apply, val_main_v22_apply, val_main_v16_apply, val_main_v20_apply,
    val_main_v17_apply, val_main_v21_apply, val_main_cst_5_apply, val_main_cst_8_apply, val_main_cst_4_apply,
    val_main_cst_7_apply]
  have e1 : ∀ k : Fin 8192, idx_main_v16 (ix1 b) k = ix2 b k := fun k =>
    funext fun d => Fin.ext (by match d with | ⟨0, _⟩ => rfl | ⟨1, _⟩ => rfl)
  have e2 : ∀ k : Fin 8192, idx_main_v20 (ix1 b) k = ix2 b k := fun k =>
    funext fun d => Fin.ext (by match d with | ⟨0, _⟩ => rfl | ⟨1, _⟩ => rfl)
  simp only [e1, e2, v15_apply x0 x1 h0 h1, v19_apply x0 x1 h0 h1, Ideal.addf_def, Ideal.hostDivf_def,
    Ideal.ofBits_def, Ideal.ofBits_zero_f32, zero_add, div_8192]
  rfl

/-- The common tail: the sum of the four batch values from zero, divided by 4. -/
def tailMean (X : Vec Ideal S4 .f32) : Vec Ideal S_ .f32 :=
  Host.divf (Host.reduceAdd X (constant (F := Ideal) S_ .f32 0x00000000#32) reducesTo_S4_S_d0 h_S_)
    (constant (F := Ideal) S_ .f32 0x40800000#32)

/-- The reference's whole result: the tail applied to the per-batch Chamfer distances. -/
theorem ref_result (x0 x1 : (⟨S4x8192x3, .f32⟩ : BufTy).Contents (Elt Ideal))
    (h0 : ∀ i, ∃ r : ℝ, x0 i = (r : EReal)) (h1 : ∀ i, ∃ r : ℝ, x1 i = (r : EReal)) :
    val_main_v25 (F := Ideal) x0 x1
      = tailMean (fun i => Chamfer.chamfer (Chamfer.Dist (coords x0) (coords x1) (i 0))) := by
  show tailMean (val_main_v23 (F := Ideal) x0 x1) = _
  refine congrArg tailMean (funext fun i => ?_)
  exact (congrArg (val_main_v23 (F := Ideal) x0 x1) (eq_ix1 i)).trans (ref_vec x0 x1 h0 h1 (i 0))

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- The precondition, read back: every entry of both arguments is a real. -/
theorem real_of_pre [Cert.Pre_finite_inputs.Facts] (x0 x1 : (⟨S4x8192x3, .f32⟩ : BufTy).Contents (Elt Ideal))
    (h : Cert.Pre_finite_inputs.fn (F := Ideal) x0 x1 = fun _ => 1#1) :
    (∀ i, ∃ r : ℝ, x0 i = (r : EReal)) ∧ (∀ i, ∃ r : ℝ, x1 i = (r : EReal)) := by
  have h' := congrFun h ix0
  dsimp only [Cert.Pre_finite_inputs.fn] at h'
  obtain ⟨ha, hb⟩ := IntOp.andi_eq_one.1 h'
  refine ⟨fun i => ?_, fun i => ?_⟩
  · exact real_of_abs_lt_inf _ (Host.reduce_andi_all _ _ _ _ _ ha i)
  · exact real_of_abs_lt_inf _ (Host.reduce_andi_all _ _ _ _ _ hb i)

end Cert.ReferenceIdeal.RefValue

end
-- ==== Proof.RefSide.lean ====
/-
  The reference's side, assembled: under the precondition that every argument entry is finite, the reference's result
  is the mean over the four batches of the Chamfer distance between the two point sets.
-/
import proofs.«180826_j62723702391632_2_alg».proof.Proof.RefSideC

noncomputable section

namespace Cert.ReferenceIdeal.RefValue

open Cert.ReferenceIdeal Cert.ReferenceIdeal.Gen Cert.ReferenceIdeal.Read Idealize.ShloMosaic Idealize.ShloMosaic.ValueIdx

/-- From the precondition to the result: the reference computes the tail of the per-batch Chamfer distances. -/
theorem ref_of_pre [Cert.Pre_finite_inputs.Facts] (x0 x1 : (⟨S4x8192x3, .f32⟩ : BufTy).Contents (Elt Ideal))
    (h : Cert.Pre_finite_inputs.fn (F := Ideal) x0 x1 = fun _ => 1#1) :
    val_main_v25 (F := Ideal) x0 x1
      = tailMean (fun i => Chamfer.chamfer (Chamfer.Dist (coords x0) (coords x1) (i 0))) :=
  ref_result x0 x1 (real_of_pre x0 x1 h).1 (real_of_pre x0 x1 h).2

end Cert.ReferenceIdeal.RefValue

end
-- ==== Proof.lean ====
/-
  The certificate of a fused Chamfer-distance kernel against its jnp reference.

  Both programs take two arrays of 4 batches of 8192 points in three dimensions and return one number: the mean over
  the batches of the Chamfer distance (mean over the first set of the squared distance to the nearest point of the
  second, plus the same with the sets exchanged).

  The kernel walks, per batch, an 8 × 8 grid of 1024 × 1024 tiles of the squared-distance matrix, which it recomputes
  tile by tile as a sum of three squared coordinate differences. Three scratch buffers carry the running row minima of
  the current row of tiles, the running column minima and a running total from point to point; the total receives each
  finished row of tiles' sum of row minima and, in the last row of tiles, each finished column tile's sum of column
  minima, each scaled by 1/8192. The frames say that this runs to the end, faults nowhere and leaves the arguments
  unchanged — for the kernel as printed and for its idealization alike, the body being run once per arrangement of its
  five branch conditions. The value claim reads the kernel's result at the extended reals: each grid point is one step
  of a tiled walk (its minima and sums read index by index), and the walk's total after the 64 tiles of a batch is the
  batch's Chamfer distance, because minima and sums over 8192 split into 8 tiles of 1024 and scaling distributes over
  sums of nonnegative terms.

  The reference computes the squared distances as |p|² + |q|² − 2 p·q clamped at zero. For finite inputs this is the
  sum of squared differences (an identity of real numbers, and the sum is nonnegative, so the clamp is the identity);
  that is where the precondition is used. Its minima, sums and divisions by 8192 are then the same Chamfer distances,
  and both programs end with the same two host operations: the sum of the four values divided by 4.

  The ideal pass rewrote nothing, so the idealization is the kernel's own text and that conjunct is trivial.
-/
import proofs.«180826_j62723702391632_2_alg».proof.Defs
import proofs.«180826_j62723702391632_2_alg».proof.Proof.Gen.Kernel
import proofs.«180826_j62723702391632_2_alg».proof.Proof.Gen.KernelIdeal
import proofs.«180826_j62723702391632_2_alg».proof.Proof.Gen.ReferenceIdeal
import proofs.«180826_j62723702391632_2_alg».proof.Proof.Gen.Pre_finite_inputs
import proofs.«180826_j62723702391632_2_alg».proof.Proof.Gen.ReferenceIdeal.Read
import proofs.«180826_j62723702391632_2_alg».proof.Proof.K.Frame
import proofs.«180826_j62723702391632_2_alg».proof.Proof.KI.Value
import proofs.«180826_j62723702391632_2_alg».proof.Proof.RefSide
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference is a straight line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the mean of the four batches' Chamfer distances of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.BodyValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v25_eq _ _).trans
    ((@Cert.ReferenceIdeal.RefValue.ref_of_pre Cert.Pre_finite_inputs.Gen.facts _ _ (hpre c)).trans rfl)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
